-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x256 .f32) (main_arg1 : IVec S1600000 32) (main_arg2 : IVec S1600000 32) (main_arg3 : IVec S100000 32) (main_arg4 : FVec F S256x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000x256 : Shape := ⟨2, ![100000, 256]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S1600000x1 : Shape := ⟨2, ![1600000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩

abbrev nBuf : Space → Nat
  | .hbm => 104
  | .vmem => 42
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x256, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .i1⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x1, .f32⟩
  | .hbm, ⟨53, _⟩ => ⟨S100000x128, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .bf16⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .bf16⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .bf16⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .bf16⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x128, .bf16⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S1x128, .f32⟩
  | .hbm, ⟨103, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x1, .f32⟩
  | .local _ .vmem, ⟨18, _⟩ => ⟨S2000x1, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S2000x1, .f32⟩
  | .local _ .vmem, ⟨32, _⟩ => ⟨S2000x1, .f32⟩
  | .local _ .vmem, ⟨33, _⟩ => ⟨S2000x128, .bf16⟩
  | .local _ .vmem, ⟨34, _⟩ => ⟨S2000x128, .bf16⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_c_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_12 : Ref sig .tc := ⟨.hbm, 71, rfl⟩
abbrev main_v43 : Ref sig .tc := ⟨.hbm, 72, rfl⟩
abbrev main_v44 : Ref sig .tc := ⟨.hbm, 73, rfl⟩
abbrev main_c_13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_15 : Ref sig .tc := ⟨.hbm, 88, rfl⟩
abbrev main_v57 : Ref sig .tc := ⟨.hbm, 89, rfl⟩
abbrev main_v58 : Ref sig .tc := ⟨.hbm, 90, rfl⟩
abbrev main_c_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_17 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  gather_S100000x256_S100000x1_S100000x256_1_0_n_n_0_1_1256_wf : GatherDims.WF S100000x256 S100000x1 S100000x256 [1] [0] [] [0] [] 1 ![1, 256]
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .bf16 = 32 ∨ (Rect.block (s := S100000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .bf16 = 32 ∨ (Rect.block (s := S100000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)

variable [Facts₀]

def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v6) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v55) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v56) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x256 : Shape := ⟨2, ![100000, 256]⟩
abbrev S1600000 : Shape := ⟨1, ![1600000]⟩
abbrev S100000 : Shape := ⟨1, ![100000]⟩
abbrev S256x128 : Shape := ⟨2, ![256, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S1600000x1 : Shape := ⟨2, ![1600000, 1]⟩
abbrev S100000x128 : Shape := ⟨2, ![100000, 128]⟩
abbrev S1600000x128 : Shape := ⟨2, ![1600000, 128]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x256, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .i1⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S_, .i32⟩
  | .hbm, ⟨108, _⟩ => ⟨S1600000, .i32⟩
  | .hbm, ⟨109, _⟩ => ⟨S1600000, .i1⟩
  | .hbm, ⟨110, _⟩ => ⟨S_, .i32⟩
  | .hbm, ⟨111, _⟩ => ⟨S1600000, .i32⟩
  | .hbm, ⟨112, _⟩ => ⟨S1600000, .i32⟩
  | .hbm, ⟨113, _⟩ => ⟨S1600000, .i32⟩
  | .hbm, ⟨114, _⟩ => ⟨S1600000x1, .i32⟩
  | .hbm, ⟨115, _⟩ => ⟨S1600000x128, .f32⟩
  | .hbm, ⟨116, _⟩ => ⟨S_, .f32⟩
  | .hbm, ⟨117, _⟩ => ⟨S100000x128, .f32⟩
  | .hbm, ⟨118, _⟩ => ⟨S1600000x1, .i32⟩
  | .hbm, ⟨119, _⟩ => ⟨S100000x128, .f32⟩
  | .hbm, ⟨120, _⟩ => ⟨S100000x1, .f32⟩
  | .hbm, ⟨121, _⟩ => ⟨S100000x128, .f32⟩
  | .hbm, ⟨122, _⟩ => ⟨S100000x128, .f32⟩
  | .hbm, ⟨123, _⟩ => ⟨S1x128, .f32⟩
  | .hbm, ⟨124, _⟩ => ⟨S100000x128, .f32⟩
  | .hbm, ⟨125, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_9 : Ref sig .tc := ⟨.hbm, 55, rfl⟩
abbrev main_v30 : Ref sig .tc := ⟨.hbm, 56, rfl⟩
abbrev main_v31 : Ref sig .tc := ⟨.hbm, 57, rfl⟩
abbrev main_c_10 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_c_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x256_S100000x1_S100000x256_1_0_n_n_0_1_1256_wf : GatherDims.WF S100000x256 S100000x1 S100000x256 [1] [0] [] [0] [] 1 ![1, 256]
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunOut.lean ====
/-
  The idealized kernel's run with its result named.

  @main is fourteen segments: stretches of host operations and six kernel regions. Each segment leaves the TensorCore's
  unscoped buffers at a known valuation (the fold through the segments), the last one `W14`. Every weakly fair execution
  therefore ends with every unscoped buffer at `W14`; read at the result buffer this names the result, and read at the
  arguments it gives their launch contents back.
-/
import proofs.«112776_j38946763440231_1_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the last segment
    boundary holds there and the ten argument arrays as launched. -/
theorem run_out : θ_run defs (onTc (τ := τ) (main (F := F))) ⟨m, fun _ => 0, ρ⟩ (fun r => ∀ c : Dev nD,
      r.2.mem ((c.tc : Thread nD τ).loc main_v69) = W14 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v69 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Out

end
-- ==== Proof.Spec.lean ====
/-
  What each of the six kernel regions computes, as a function of whole arrays, entry by entry on the extended reals.

  A graph-convolution layer is  relu( D_in^(-1/2) · A · D_out^(-1/2) · (h W) + b ).  The kernel splits it in two regions:
  the projection  (h W) scaled row by row by the out-degree factor, and, after the edge gather and scatter-add done on the
  host, the post-aggregation  a · (in-degree factor) + b  with or without the clamp at zero. Here the degree factors are
  columns (one entry per node) and the bias is a row (one entry per feature).
-/
import proofs.«112776_j38946763440231_1_alg».proof.KernelIdeal
import Idealize.ShloMosaic.Lib.ValueIdx

noncomputable section

open scoped BigOperators

namespace Cert.Spec

open Idealize.ShloMosaic Idealize.ShloMosaic.ValueIdx Cert.KernelIdeal

/-- Entry (r, q) of the first layer's projection: row r of the node features times column q of the weights, a sum over the
    256 input features, scaled by node r's out-degree factor. -/
def projAt256 (h : Vec Ideal S100000x256 .f32) (w : Vec Ideal S256x128 .f32) (s : Vec Ideal S100000x1 .f32)
    (r : Fin 100000) (q : Fin 128) : EReal :=
  (∑ k : Fin 256, h (ix2 r k) * w (ix2 k q)) * s (ix2 r 0)

/-- The first layer's projection as a whole array. -/
def proj256 (h : Vec Ideal S100000x256 .f32) (w : Vec Ideal S256x128 .f32) (s : Vec Ideal S100000x1 .f32) :
    Vec Ideal S100000x128 .bf16 :=
  fun i => projAt256 h w s ⟨(i 0).val, (i 0).isLt⟩ ⟨(i 1).val, (i 1).isLt⟩

/-- Entry (r, q) of a later layer's projection: the same with 128 input features. -/
def projAt128 (h : Vec Ideal S100000x128 .f32) (w : Vec Ideal S128x128 .f32) (s : Vec Ideal S100000x1 .f32)
    (r : Fin 100000) (q : Fin 128) : EReal :=
  (∑ k : Fin 128, h (ix2 r k) * w (ix2 k q)) * s (ix2 r 0)

/-- A later layer's projection as a whole array. -/
def proj128 (h : Vec Ideal S100000x128 .f32) (w : Vec Ideal S128x128 .f32) (s : Vec Ideal S100000x1 .f32) :
    Vec Ideal S100000x128 .bf16 :=
  fun i => projAt128 h w s ⟨(i 0).val, (i 0).isLt⟩ ⟨(i 1).val, (i 1).isLt⟩

/-- Entry (r, q) after aggregation, before any clamp: the aggregate scaled by node r's in-degree factor, plus feature q's bias. -/
def affAt (a : Vec Ideal S100000x128 .f32) (s : Vec Ideal S100000x1 .f32) (b : Vec Ideal S1x128 .f32)
    (r : Fin 100000) (q : Fin 128) : EReal :=
  a (ix2 r q) * s (ix2 r 0) + b (ix2 0 q)

/-- The post-aggregation of the last layer: no clamp. -/
def postLin (a : Vec Ideal S100000x128 .f32) (s : Vec Ideal S100000x1 .f32) (b : Vec Ideal S1x128 .f32) :
    Vec Ideal S100000x128 .f32 :=
  fun i => affAt a s b ⟨(i 0).val, (i 0).isLt⟩ ⟨(i 1).val, (i 1).isLt⟩

/-- The post-aggregation of the first two layers: clamped below at zero (the float word of zero read as a real). -/
def postRelu (a : Vec Ideal S100000x128 .f32) (s : Vec Ideal S100000x1 .f32) (b : Vec Ideal S1x128 .f32) :
    Vec Ideal S100000x128 .f32 :=
  fun i => max (affAt a s b ⟨(i 0).val, (i 0).isLt⟩ ⟨(i 1).val, (i 1).isLt⟩) (Ideal.ofBits .f32 0x00000000#32)

end Cert.Spec

end
-- ==== Proof.Body.lean ====
/-
  The arithmetic of the six kernel bodies, read one output entry at a time on the extended reals.

  A projection body takes a block of 2000 rows x, the whole weight matrix w and the rows' out-degree factors s (a column),
  and stores  (Σ_k x(p,k) · w(k,q)) · s(p).  A post-aggregation body takes a block of aggregated rows a, the rows'
  in-degree factors s (a column) and the bias b (a row), and stores  a(p,q) · s(p) + b(q),  clamped below at zero in the
  first two layers. Rounding to a narrower float format is the identity here.
-/
import proofs.«112776_j38946763440231_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- A column of per-row factors spread along the 128 lanes reads, at (p, q), the column's entry for row p. -/
theorem bcastCol_apply (x : S2000x1.Idx → EReal) (p : Fin 2000) (q : Fin 128) :
    broadcastTo S2000x128 x broadcasts_S2000x1_S2000x128 (ix2 p q) = x (ix2 p 0) :=
  broadcastTo_apply x broadcasts_S2000x1_S2000x128 (ix2 p q) (ix2 p 0) (fun a => match a with
    | ⟨0, _⟩ => by show p.val = if (2000 : Nat) = 1 then 0 else p.val; rw [if_neg (by decide)]
    | ⟨1, _⟩ => by show (0 : Nat) = if (1 : Nat) = 1 then 0 else q.val; rw [if_pos rfl])

/-- A row of per-column terms spread down the 2000 rows reads, at (p, q), the row's entry for column q. -/
theorem bcastRow_apply (x : S1x128.Idx → EReal) (p : Fin 2000) (q : Fin 128) :
    broadcastTo S2000x128 x broadcasts_S1x128_S2000x128 (ix2 p q) = x (ix2 0 q) :=
  broadcastTo_apply x broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-! The contraction of a [2000, 256] block with a [256, 128] matrix: at output index (p, q) the left operand is read at (p, k) and
    the right at (k, q), k the one contracted coordinate. -/

theorem lhs256_0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs256_1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem rhs256_0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem rhs256_1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product of a block of rows with the weight matrix, into a zero accumulator, is the plain sum over the contracted
    coordinate: entry (p, q) is the sum over k of x(p, k) · w(k, q). -/
theorem matmul256_apply (x : FVec Ideal S2000x256 .bf16) (w : FVec Ideal S256x128 .bf16) (p : Fin 2000) (q : Fin 128) :
    matmul dot_S2000x256_S256x128_S2000x128_1_0_0_1_n_n none x w (constant (F := Ideal) S2000x128 .f32 0x00000000#32) (ix2 p q)
      = ∑ k : Fin 256, x (ix2 p k) * w (ix2 k q) := by
  refine (Ideal.matmul_constant_zero_apply dot_S2000x256_S256x128_S2000x128_1_0_0_1_n_n none x w (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs256_0 _ _
    | ⟨1, _⟩ => exact (lhs256_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs256_0 _ _).trans hk
    | ⟨1, _⟩ => exact rhs256_1 _ _)
  rw [el, er]

/-! The contraction of a [2000, 128] block with a [128, 128] matrix: at output index (p, q) the left operand is read at (p, k) and
    the right at (k, q), k the one contracted coordinate. -/

theorem lhs128_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a block of rows with the weight matrix, into a zero accumulator, is the plain sum over the contracted
    coordinate: entry (p, q) is the sum over k of x(p, k) · w(k, q). -/
theorem matmul128_apply (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- What the projection body stores, entry by entry: row p of the block times column q of the weights, scaled by the
    row's out-degree factor. The changes of float format are the identity on extended reals. -/
theorem k0_pay1_apply (x0 : Vec Ideal S2000x256 .f32) (x1 : Vec Ideal S256x128 .f32) (x2 : Vec Ideal S2000x1 .f32) (p : Fin 2000) (q : Fin 128) :
    k0_pay1 (F := Ideal) x0 x1 x2 (ix2 p q) = (∑ k : Fin 256, x0 (ix2 p k) * x1 (ix2 k q)) * x2 (ix2 p 0) := by
  unfold k0_pay1
  simp only [shapeCast_self]
  exact congrArg₂ (· * ·) (matmul256_apply x0 x1 p q) (bcastCol_apply x2 p q)

/-- What the projection body stores, entry by entry: row p of the block times column q of the weights, scaled by the
    row's out-degree factor. The changes of float format are the identity on extended reals. -/
theorem k2_pay1_apply (x0 : Vec Ideal S2000x128 .f32) (x1 : Vec Ideal S128x128 .f32) (x2 : Vec Ideal S2000x1 .f32) (p : Fin 2000) (q : Fin 128) :
    k2_pay1 (F := Ideal) x0 x1 x2 (ix2 p q) = (∑ k : Fin 128, x0 (ix2 p k) * x1 (ix2 k q)) * x2 (ix2 p 0) := by
  unfold k2_pay1
  simp only [shapeCast_self]
  exact congrArg₂ (· * ·) (matmul128_apply x0 x1 p q) (bcastCol_apply x2 p q)

/-- What the projection body stores, entry by entry: row p of the block times column q of the weights, scaled by the
    row's out-degree factor. The changes of float format are the identity on extended reals. -/
theorem k4_pay1_apply (x0 : Vec Ideal S2000x128 .f32) (x1 : Vec Ideal S128x128 .f32) (x2 : Vec Ideal S2000x1 .f32) (p : Fin 2000) (q : Fin 128) :
    k4_pay1 (F := Ideal) x0 x1 x2 (ix2 p q) = (∑ k : Fin 128, x0 (ix2 p k) * x1 (ix2 k q)) * x2 (ix2 p 0) := by
  unfold k4_pay1
  simp only [shapeCast_self]
  exact congrArg₂ (· * ·) (matmul128_apply x0 x1 p q) (bcastCol_apply x2 p q)

/-- What the post-aggregation body stores, entry by entry: the aggregate scaled by the row's in-degree factor plus the
    column's bias, clamped below at zero. -/
theorem k1_pay1_apply (x0 : Vec Ideal S2000x128 .f32) (x1 : Vec Ideal S2000x1 .f32) (x2 : Vec Ideal S1x128 .f32) (p : Fin 2000) (q : Fin 128) :
    k1_pay1 (F := Ideal) x0 x1 x2 (ix2 p q) = max (x0 (ix2 p q) * x1 (ix2 p 0) + x2 (ix2 0 q)) (Ideal.ofBits .f32 0x00000000#32) := by
  unfold k1_pay1
  simp only [shapeCast_self]
  exact congrArg₂ max (congrArg₂ (· + ·) (congrArg₂ (· * ·) rfl (bcastCol_apply x1 p q)) (bcastRow_apply x2 p q)) rfl

/-- What the post-aggregation body stores, entry by entry: the aggregate scaled by the row's in-degree factor plus the
    column's bias, clamped below at zero. -/
theorem k3_pay1_apply (x0 : Vec Ideal S2000x128 .f32) (x1 : Vec Ideal S2000x1 .f32) (x2 : Vec Ideal S1x128 .f32) (p : Fin 2000) (q : Fin 128) :
    k3_pay1 (F := Ideal) x0 x1 x2 (ix2 p q) = max (x0 (ix2 p q) * x1 (ix2 p 0) + x2 (ix2 0 q)) (Ideal.ofBits .f32 0x00000000#32) := by
  unfold k3_pay1
  simp only [shapeCast_self]
  exact congrArg₂ max (congrArg₂ (· + ·) (congrArg₂ (· * ·) rfl (bcastCol_apply x1 p q)) (bcastRow_apply x2 p q)) rfl

/-- What the post-aggregation body stores, entry by entry: the aggregate scaled by the row's in-degree factor plus the
    column's bias. -/
theorem k5_pay1_apply (x0 : Vec Ideal S2000x128 .f32) (x1 : Vec Ideal S2000x1 .f32) (x2 : Vec Ideal S1x128 .f32) (p : Fin 2000) (q : Fin 128) :
    k5_pay1 (F := Ideal) x0 x1 x2 (ix2 p q) = x0 (ix2 p q) * x1 (ix2 p 0) + x2 (ix2 0 q) := by
  unfold k5_pay1
  simp only [shapeCast_self]
  exact congrArg₂ (· + ·) (congrArg₂ (· * ·) rfl (bcastCol_apply x1 p q)) (bcastRow_apply x2 p q)

end Cert.KernelIdeal.Body

end
-- ==== Proof.Region0.lean ====
/-
  Region 0, the projection of layer 1: the region's output array ends as the whole-array projection of its inputs.

  The grid has 50 points. At point t the region stages rows 2000 t … 2000 t + 1999 of the permuted features and of the out-degree column,
  and the whole [256, 128] weight matrix; the body stores, at (p, q) of its block, the sum over k of x(p, k) · w(k, q) times
  the row's factor, which is entry (2000 t + p, q) of the projection of the whole arrays (`key`). So what point t writes
  back is block t of that whole-array function (`flushed_eq`); the fifty blocks tile the 100000 rows, row r lying in
  block r / 2000 (`cover`); hence the array after the region is the function itself (`final`). All of it is stated at an
  arbitrary valuation of the buffers at the region's entry.
-/
import proofs.«112776_j38946763440231_1_alg».proof.Proof.Gen.KernelIdeal.Frame
import proofs.«112776_j38946763440231_1_alg».proof.Proof.Spec
import proofs.«112776_j38946763440231_1_alg».proof.Proof.Body
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: at point t the feature rows, the degree column and the output all sit at
    block t along the node axis, and the weight matrix is always its one whole block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-- Entry (p, q) of what point t stores is entry (2000 t + p, q) of the projection of the whole arrays. -/
theorem key (c : Dev nD) (t : Fin cfg0.N) (p : Fin 2000) (q : Fin 128) :
    k0_pay1 (F := Ideal) (iblk0 V c 0 t) (iblk0 V c 1 t) (iblk0 V c 2 t) (ix2 p q)
      = Spec.proj256 (V c main_v6) (V c main_arg4) (V c main_v26) (((cfg0.win 3).blk t).view.emb (ix2 p q)) := by
  obtain ⟨e00, e01, e10, e11, e20, e21, e30, e31⟩ := idx_facts t
  refine (Body.k0_pay1_apply _ _ _ p q).trans ?_
  unfold Spec.proj256 Spec.projAt256
  refine congrArg₂ (· * ·) (Finset.sum_congr rfl fun k _ => congrArg₂ (· * ·) ?_ ?_) ?_
  · show V c main_v6 (((cfg0.win 0).blk t).view.emb (ix2 p k)) = V c main_v6 _
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * k.val = k.val; omega
  · show V c main_arg4 (((cfg0.win 1).blk t).view.emb (ix2 k q)) = V c main_arg4 _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  · show V c main_v26 (((cfg0.win 2).blk t).view.emb (ix2 p 0)) = V c main_v26 _
    refine congrArg _ (funext fun a => Fin.ext ?_)
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega

/-- What point t writes back is block t of the projection of the arrays as the region finds them. -/
theorem flushed_eq (c : Dev nD) (t : Fin cfg0.N) :
    (dat0 V c).flushed 3 t = ((cfg0.win 3).blk t).view.read (Elt Ideal) (Spec.proj256 (V c main_v6) (V c main_arg4) (V c main_v26)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x128) hz, View.ld_unit_zero (S := S2000x1) hz]
  funext j
  obtain ⟨p, q, rfl⟩ : ∃ (p : Fin 2000) (q : Fin 128), j = ix2 p q := ⟨j 0, j 1, eq_ix2 j⟩
  exact key V c t p q

/-- An index of the output array lies in point t's block iff each coordinate lies in the block's range. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v28).slice (win0_3.rect t)).set ↔ _
  rw [View.set_slice_whole, Rect.mem_set_unit]
  exact Iff.rfl

/-- The fifty blocks of 2000 rows cover the 100000 rows: row r is in the block of point r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_3 _, ?_⟩
  rw [mem_blk]
  obtain ⟨e00, e01, e10, e11, e20, e21, e30, e31⟩ := idx_facts ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e30]; show (i 0).val / 2000 * 2000 ≤ _ ∧ _ < (i 0).val / 2000 * 2000 + 2000; omega
  | ⟨1, _⟩ => show win0_3.index _ (1 : Fin 2) * 128 ≤ (i 1).val ∧ (i 1).val < win0_3.index _ (1 : Fin 2) * 128 + 128; rw [e31]; omega

/-- The output array after the region: the projection of the arrays as the region finds them. -/
theorem final (c : Dev nD) :
    (dat0 V c).arrAt 3 cfg0.N = Spec.proj256 (V c main_v6) (V c main_arg4) (V c main_v26) :=
  (dat0 V c).arrAt_eq_of_cover 3 _ (fun t _ => flushed_eq V c t) (fun i => cover i)

end Cert.KernelIdeal.Region0

end
-- ==== Proof.Region1.lean ====
/-
  Region 1, the post-aggregation of layer 1: the region's output array ends as the whole-array post-aggregation of its inputs.

  The grid has 50 points. At point t the region stages rows 2000 t … 2000 t + 1999 of the aggregated messages and of the
  in-degree column, and the whole bias row; the body stores, at (p, q) of its block, a(p, q) · s(p) + b(q) clamped below at zero,
  which is entry (2000 t + p, q) of the post-aggregation of the whole arrays (`key`). So what point t writes back is block t
  of that whole-array function (`flushed_eq`); the fifty blocks tile the 100000 rows, row r lying in block r / 2000
  (`cover`); hence the array after the region is the function itself (`final`). All of it is stated at an arbitrary
  valuation of the buffers at the region's entry.
-/
import proofs.«112776_j38946763440231_1_alg».proof.Proof.Gen.KernelIdeal.Frame
import proofs.«112776_j38946763440231_1_alg».proof.Proof.Spec
import proofs.«112776_j38946763440231_1_alg».proof.Proof.Body
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: at point t the aggregated rows, the degree column and the output all sit
    at block t along the node axis, and the bias row is always its one whole block. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Entry (p, q) of what point t stores is entry (2000 t + p, q) of the post-aggregation of the whole arrays. -/
theorem key (c : Dev nD) (t : Fin cfg1.N) (p : Fin 2000) (q : Fin 128) :
    k1_pay1 (F := Ideal) (iblk1 V c 0 t) (iblk1 V c 1 t) (iblk1 V c 2 t) (ix2 p q)
      = Spec.postRelu (V c main_v39) (V c main_v27) (V c main_v40) (((cfg1.win 3).blk t).view.emb (ix2 p q)) := by
  obtain ⟨e00, e01, e10, e11, e20, e21, e30, e31⟩ := idx_facts t
  refine (Body.k1_pay1_apply _ _ _ p q).trans ?_
  unfold Spec.postRelu Spec.affAt
  refine congrArg₂ max (congrArg₂ (· + ·) (congrArg₂ (· * ·) ?_ ?_) ?_) rfl
  · show V c main_v39 (((cfg1.win 0).blk t).view.emb (ix2 p q)) = V c main_v39 _
    refine congrArg _ (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  · show V c main_v27 (((cfg1.win 1).blk t).view.emb (ix2 p 0)) = V c main_v27 _
    refine congrArg _ (funext fun a => Fin.ext ?_)
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  · show V c main_v40 (((cfg1.win 2).blk t).view.emb (ix2 0 q)) = V c main_v40 _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- What point t writes back is block t of the post-aggregation of the arrays as the region finds them. -/
theorem flushed_eq (c : Dev nD) (t : Fin cfg1.N) :
    (dat1 V c).flushed 3 t = ((cfg1.win 3).blk t).view.read (Elt Ideal) (Spec.postRelu (V c main_v39) (V c main_v27) (V c main_v40)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  exact key V c t p q

/-- An index of the output array lies in point t's block iff each coordinate lies in the block's range. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v41).slice (win1_3.rect t)).set ↔ _
  rw [View.set_slice_whole, Rect.mem_set_unit]
  exact Iff.rfl

/-- The fifty blocks of 2000 rows cover the 100000 rows: row r is in the block of point r / 2000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_3 _, ?_⟩
  rw [mem_blk]
  obtain ⟨e00, e01, e10, e11, e20, e21, e30, e31⟩ := idx_facts ⟨(i 0).val / 2000, by rw [hN]; omega⟩
  intro a
  match a with
  | ⟨0, _⟩ => show win1_3.index _ (0 : Fin 2) * 2000 ≤ (i 0).val ∧ (i 0).val < win1_3.index _ (0 : Fin 2) * 2000 + 2000; rw [e30]; show (i 0).val / 2000 * 2000 ≤ _ ∧ _ < (i 0).val / 2000 * 2000 + 2000; omega
  | ⟨1, _⟩ => show win1_3.index _ (1 : Fin 2) * 128 ≤ (i 1).val ∧ (i 1).val < win1_3.index _ (1 : Fin 2) * 128 + 128; rw [e31]; omega

/-- The output array after the region: the post-aggregation of the arrays as the region finds them. -/
theorem final (c : Dev nD) :
    (dat1 V c).arrAt 3 cfg1.N = Spec.postRelu (V c main_v39) (V c main_v27) (V c main_v40) :=
  (dat1 V c).arrAt_eq_of_cover 3 _ (fun t _ => flushed_eq V c t) (fun i => cover i)

end Cert.KernelIdeal.Region1

end
-- ==== Proof.Region2.lean ====
/-
  Region 2, the projection of layer 2: the region's output array ends as the whole-array projection of its inputs.

  The grid has 50 points. At point t the region stages rows 2000 t … 2000 t + 1999 of the first layer's output and of the out-degree column,
  and the whole [128, 128] weight matrix; the body stores, at (p, q) of its block, the sum over k of x(p, k) · w(k, q) times
  the row's factor, which is entry (2000 t + p, q) of the projection of the whole arrays (`key`). So what point t writes
  back is block t of that whole-array function (`flushed_eq`); the fifty blocks tile the 100000 rows, row r lying in
  block r / 2000 (`cover`); hence the array after the region is the function itself (`final`). All of it is stated at an
  arbitrary valuation of the buffers at the region's entry.
-/
import proofs.«112776_j38946763440231_1_alg».proof.Proof.Gen.KernelIdeal.Frame
import proofs.«112776_j38946763440231_1_alg».proof.Proof.Spec
import proofs.«112776_j38946763440231_1_alg».proof.Proof.Body
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: at point t the feature rows, the degree column and the output all sit at
    block t along the node axis, and the weight matrix is always its one whole block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0 :=
  (by decide +kernel : ∀ t : Fin grid2.N, _)

/-- Entry (p, q) of what point t stores is entry (2000 t + p, q) of the projection of the whole arrays. -/
theorem key (c : Dev nD) (t : Fin cfg2.N) (p : Fin 2000) (q : Fin 128) :
    k2_pay1 (F := Ideal) (iblk2 V c 0 t) (iblk2 V c 1 t) (iblk2 V c 2 t) (ix2 p q)
      = Spec.proj128 (V c main_v41) (V c main_arg6) (V c main_v26) (((cfg2.win 3).blk t).view.emb (ix2 p q)) := by
  obtain ⟨e00, e01, e10, e11, e20, e21, e30, e31⟩ := idx_facts t
  refine (Body.k2_pay1_apply _ _ _ p q).trans ?_
  unfold Spec.proj128 Spec.projAt128
  refine congrArg₂ (· * ·) (Finset.sum_congr rfl fun k _ => congrArg₂ (· * ·) ?_ ?_) ?_
  · show V c main_v41 (((cfg2.win 0).blk t).view.emb (ix2 p k)) = V c main_v41 _
    refine congrArg _ (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  · show V c main_arg6 (((cfg2.win 1).blk t).view.emb (ix2 k q)) = V c main_arg6 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  · show V c main_v26 (((cfg2.win 2).blk t).view.emb (ix2 p 0)) = V c main_v26 _
    refine congrArg _ (funext fun a => Fin.ext ?_)
    match a with
    | ⟨0, _⟩ => show win2_2.index t (0 : Fin 2) * 2000 + 1 * p.val = win2_3.index t (0 : Fin 2) * 2000 + 1 * p.val; omega
    | ⟨1, _⟩ => show win2_2.index t (1 : Fin 2) * 1 + 1 * 0 = 0; omega

/-- What point t writes back is block t of the projection of the arrays as the region finds them. -/
theorem flushed_eq (c : Dev nD) (t : Fin cfg2.N) :
    (dat2 V c).flushed 3 t = ((cfg2.win 3).blk t).view.read (Elt Ideal) (Spec.proj128 (V c main_v41) (V c main_arg6) (V c main_v26)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz, View.ld_unit_zero (S := S2000x1) hz]
  funext j
  obtain ⟨p, q, rfl⟩ : ∃ (p : Fin 2000) (q : Fin 128), j = ix2 p q := ⟨j 0, j 1, eq_ix2 j⟩
  exact key V c t p q

/-- An index of the output array lies in point t's block iff each coordinate lies in the block's range. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v42).slice (win2_3.rect t)).set ↔ _
  rw [View.set_slice_whole, Rect.mem_set_unit]
  exact Iff.rfl

/-- The fifty blocks of 2000 rows cover the 100000 rows: row r is in the block of point r / 2000. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_3 _, ?_⟩
  rw [mem_blk]
  obtain ⟨e00, e01, e10, e11, e20, e21, e30, e31⟩ := idx_facts ⟨(i 0).val / 2000, by rw [hN]; omega⟩
  intro a
  match a with
  | ⟨0, _⟩ => show win2_3.index _ (0 : Fin 2) * 2000 ≤ (i 0).val ∧ (i 0).val < win2_3.index _ (0 : Fin 2) * 2000 + 2000; rw [e30]; show (i 0).val / 2000 * 2000 ≤ _ ∧ _ < (i 0).val / 2000 * 2000 + 2000; omega
  | ⟨1, _⟩ => show win2_3.index _ (1 : Fin 2) * 128 ≤ (i 1).val ∧ (i 1).val < win2_3.index _ (1 : Fin 2) * 128 + 128; rw [e31]; omega

/-- The output array after the region: the projection of the arrays as the region finds them. -/
theorem final (c : Dev nD) :
    (dat2 V c).arrAt 3 cfg2.N = Spec.proj128 (V c main_v41) (V c main_arg6) (V c main_v26) :=
  (dat2 V c).arrAt_eq_of_cover 3 _ (fun t _ => flushed_eq V c t) (fun i => cover i)

end Cert.KernelIdeal.Region2

end
-- ==== Proof.Region3.lean ====
/-
  Region 3, the post-aggregation of layer 2: the region's output array ends as the whole-array post-aggregation of its inputs.

  The grid has 50 points. At point t the region stages rows 2000 t … 2000 t + 1999 of the aggregated messages and of the
  in-degree column, and the whole bias row; the body stores, at (p, q) of its block, a(p, q) · s(p) + b(q) clamped below at zero,
  which is entry (2000 t + p, q) of the post-aggregation of the whole arrays (`key`). So what point t writes back is block t
  of that whole-array function (`flushed_eq`); the fifty blocks tile the 100000 rows, row r lying in block r / 2000
  (`cover`); hence the array after the region is the function itself (`final`). All of it is stated at an arbitrary
  valuation of the buffers at the region's entry.
-/
import proofs.«112776_j38946763440231_1_alg».proof.Proof.Gen.KernelIdeal.Frame
import proofs.«112776_j38946763440231_1_alg».proof.Proof.Spec
import proofs.«112776_j38946763440231_1_alg».proof.Proof.Body
import Idealize.ShloMosaic.Lib.Pipeline.Value
import Idealize.ShloMosaic.Lib.ValueIdx

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: at point t the aggregated rows, the degree column and the output all sit
    at block t along the node axis, and the bias row is always its one whole block. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Entry (p, q) of what point t stores is entry (2000 t + p, q) of the post-aggregation of the whole arrays. -/
theorem key (c : Dev nD) (t : Fin cfg3.N) (p : Fin 2000) (q : Fin 128) :
    k3_pay1 (F := Ideal) (iblk3 V c 0 t) (iblk3 V c 1 t) (iblk3 V c 2 t) (ix2 p q)
      = Spec.postRelu (V c main_v53) (V c main_v27) (V c main_v54) (((cfg3.win 3).blk t).view.emb (ix2 p q)) := by
  obtain ⟨e00, e01, e10, e11, e20, e21, e30, e31⟩ := idx_facts t
  refine (Body.k3_pay1_apply _ _ _ p q).trans ?_
  unfold Spec.postRelu Spec.affAt
  refine congrArg₂ max (congrArg₂ (· + ·) (congrArg₂ (· * ·) ?_ ?_) ?_) rfl
  · show V c main_v53 (((cfg3.win 0).blk t).view.emb (ix2 p q)) = V c main_v53 _
    refine congrArg _ (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * q.val = win3_3.index t (1 : Fin 2) * 128 + 1 * q.val; omega
  · show V c main_v27 (((cfg3.win 1).blk t).view.emb (ix2 p 0)) = V c main_v27 _
    refine congrArg _ (funext fun a => Fin.ext ?_)
    match a with
    | ⟨0, _⟩ => show win3_1.index t (0 : Fin 2) * 2000 + 1 * p.val = win3_3.index t (0 : Fin 2) * 2000 + 1 * p.val; omega
    | ⟨1, _⟩ => show win3_1.index t (1 : Fin 2) * 1 + 1 * 0 = 0; omega
  · show V c main_v54 (((cfg3.win 2).blk t).view.emb (ix2 0 q)) = V c main_v54 _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- What point t writes back is block t of the post-aggregation of the arrays as the region finds them. -/
theorem flushed_eq (c : Dev nD) (t : Fin cfg3.N) :
    (dat3 V c).flushed 3 t = ((cfg3.win 3).blk t).view.read (Elt Ideal) (Spec.postRelu (V c main_v53) (V c main_v27) (V c main_v54)) := by
  show (cfg3.win 3).cut (grid3.coords t) ((dat3 V c).after 3 t) = _
  rw [after3_3]
  unfold out3_3
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  exact key V c t p q

/-- An index of the output array lies in point t's block iff each coordinate lies in the block's range. -/
theorem mem_blk (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v55).slice (win3_3.rect t)).set ↔ _
  rw [View.set_slice_whole, Rect.mem_set_unit]
  exact Iff.rfl

/-- The fifty blocks of 2000 rows cover the 100000 rows: row r is in the block of point r / 2000. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_3 _, ?_⟩
  rw [mem_blk]
  obtain ⟨e00, e01, e10, e11, e20, e21, e30, e31⟩ := idx_facts ⟨(i 0).val / 2000, by rw [hN]; omega⟩
  intro a
  match a with
  | ⟨0, _⟩ => show win3_3.index _ (0 : Fin 2) * 2000 ≤ (i 0).val ∧ (i 0).val < win3_3.index _ (0 : Fin 2) * 2000 + 2000; rw [e30]; show (i 0).val / 2000 * 2000 ≤ _ ∧ _ < (i 0).val / 2000 * 2000 + 2000; omega
  | ⟨1, _⟩ => show win3_3.index _ (1 : Fin 2) * 128 ≤ (i 1).val ∧ (i 1).val < win3_3.index _ (1 : Fin 2) * 128 + 128; rw [e31]; omega

/-- The output array after the region: the post-aggregation of the arrays as the region finds them. -/
theorem final (c : Dev nD) :
    (dat3 V c).arrAt 3 cfg3.N = Spec.postRelu (V c main_v53) (V c main_v27) (V c main_v54) :=
  (dat3 V c).arrAt_eq_of_cover 3 _ (fun t _ => flushed_eq V c t) (fun i => cover i)

end Cert.KernelIdeal.Region3

end
-- ==== Proof.Region4.lean ====
/-
  Region 4, the projection of layer 3: the region's output array ends as the whole-array projection of its inputs.

  The grid has 50 points. At point t the region stages rows 2000 t … 2000 t + 1999 of the second layer's output and of the out-degree column,
  and the whole [128, 128] weight matrix; the body stores, at (p, q) of its block, the sum over k of x(p, k) · w(k, q) times
  the row's factor, which is entry (2000 t + p, q) of the projection of the whole arrays (`key`). So what point t writes
  back is block t of that whole-array function (`flushed_eq`); the fifty blocks tile the 100000 rows, row r lying in
  block r / 2000 (`cover`); hence the array after the region is the function itself (`final`). All of it is stated at an
  arbitrary valuation of the buffers at the region's entry.
-/
import proofs.«112776_j38946763440231_1_alg».proof.Proof.Gen.KernelIdeal.Frame
import proofs.«112776_j38946763440231_1_alg».proof.Proof.Spec
import proofs.«112776_j38946763440231_1_alg».proof.Proof.Body
import Idealize.ShloMosaic.Lib.Pipeline.Value
import Idealize.ShloMosaic.Lib.ValueIdx

set_option maxRecDepth 16384

noncomputable section

open scoped BigOperators

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: at point t the feature rows, the degree column and the output all sit at
    block t along the node axis, and the weight matrix is always its one whole block. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0
    ∧ win4_3.index t (0 : Fin 2) = t.val
    ∧ win4_3.index t (1 : Fin 2) = 0 :=
  (by decide +kernel : ∀ t : Fin grid4.N, _)

/-- Entry (p, q) of what point t stores is entry (2000 t + p, q) of the projection of the whole arrays. -/
theorem key (c : Dev nD) (t : Fin cfg4.N) (p : Fin 2000) (q : Fin 128) :
    k4_pay1 (F := Ideal) (iblk4 V c 0 t) (iblk4 V c 1 t) (iblk4 V c 2 t) (ix2 p q)
      = Spec.proj128 (V c main_v55) (V c main_arg8) (V c main_v26) (((cfg4.win 3).blk t).view.emb (ix2 p q)) := by
  obtain ⟨e00, e01, e10, e11, e20, e21, e30, e31⟩ := idx_facts t
  refine (Body.k4_pay1_apply _ _ _ p q).trans ?_
  unfold Spec.proj128 Spec.projAt128
  refine congrArg₂ (· * ·) (Finset.sum_congr rfl fun k _ => congrArg₂ (· * ·) ?_ ?_) ?_
  · show V c main_v55 (((cfg4.win 0).blk t).view.emb (ix2 p k)) = V c main_v55 _
    refine congrArg _ (funext fun a => Fin.ext ?_)
    match a with
    | ⟨0, _⟩ => show win4_0.index t (0 : Fin 2) * 2000 + 1 * p.val = win4_3.index t (0 : Fin 2) * 2000 + 1 * p.val; omega
    | ⟨1, _⟩ => show win4_0.index t (1 : Fin 2) * 128 + 1 * k.val = k.val; omega
  · show V c main_arg8 (((cfg4.win 1).blk t).view.emb (ix2 k q)) = V c main_arg8 _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_3.index t (1 : Fin 2) * 128 + 1 * q.val; omega
  · show V c main_v26 (((cfg4.win 2).blk t).view.emb (ix2 p 0)) = V c main_v26 _
    refine congrArg _ (funext fun a => Fin.ext ?_)
    match a with
    | ⟨0, _⟩ => show win4_2.index t (0 : Fin 2) * 2000 + 1 * p.val = win4_3.index t (0 : Fin 2) * 2000 + 1 * p.val; omega
    | ⟨1, _⟩ => show win4_2.index t (1 : Fin 2) * 1 + 1 * 0 = 0; omega

/-- What point t writes back is block t of the projection of the arrays as the region finds them. -/
theorem flushed_eq (c : Dev nD) (t : Fin cfg4.N) :
    (dat4 V c).flushed 3 t = ((cfg4.win 3).blk t).view.read (Elt Ideal) (Spec.proj128 (V c main_v55) (V c main_arg8) (V c main_v26)) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S2000x1) hz]
  funext j
  obtain ⟨p, q, rfl⟩ : ∃ (p : Fin 2000) (q : Fin 128), j = ix2 p q := ⟨j 0, j 1, eq_ix2 j⟩
  exact key V c t p q

/-- An index of the output array lies in point t's block iff each coordinate lies in the block's range. -/
theorem mem_blk (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v56).slice (win4_3.rect t)).set ↔ _
  rw [View.set_slice_whole, Rect.mem_set_unit]
  exact Iff.rfl

/-- The fifty blocks of 2000 rows cover the 100000 rows: row r is in the block of point r / 2000. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 50 := N_4
  refine ⟨⟨(i 0).val / 2000, by rw [hN]; omega⟩, flush4_3 _, ?_⟩
  rw [mem_blk]
  obtain ⟨e00, e01, e10, e11, e20, e21, e30, e31⟩ := idx_facts ⟨(i 0).val / 2000, by rw [hN]; omega⟩
  intro a
  match a with
  | ⟨0, _⟩ => show win4_3.index _ (0 : Fin 2) * 2000 ≤ (i 0).val ∧ (i 0).val < win4_3.index _ (0 : Fin 2) * 2000 + 2000; rw [e30]; show (i 0).val / 2000 * 2000 ≤ _ ∧ _ < (i 0).val / 2000 * 2000 + 2000; omega
  | ⟨1, _⟩ => show win4_3.index _ (1 : Fin 2) * 128 ≤ (i 1).val ∧ (i 1).val < win4_3.index _ (1 : Fin 2) * 128 + 128; rw [e31]; omega

/-- The output array after the region: the projection of the arrays as the region finds them. -/
theorem final (c : Dev nD) :
    (dat4 V c).arrAt 3 cfg4.N = Spec.proj128 (V c main_v55) (V c main_arg8) (V c main_v26) :=
  (dat4 V c).arrAt_eq_of_cover 3 _ (fun t _ => flushed_eq V c t) (fun i => cover i)

end Cert.KernelIdeal.Region4

end
-- ==== Proof.Region5.lean ====
/-
  Region 5, the post-aggregation of layer 3: the region's output array ends as the whole-array post-aggregation of its inputs.

  The grid has 50 points. At point t the region stages rows 2000 t … 2000 t + 1999 of the aggregated messages and of the
  in-degree column, and the whole bias row; the body stores, at (p, q) of its block, a(p, q) · s(p) + b(q),
  which is entry (2000 t + p, q) of the post-aggregation of the whole arrays (`key`). So what point t writes back is block t
  of that whole-array function (`flushed_eq`); the fifty blocks tile the 100000 rows, row r lying in block r / 2000
  (`cover`); hence the array after the region is the function itself (`final`). All of it is stated at an arbitrary
  valuation of the buffers at the region's entry.
-/
import proofs.«112776_j38946763440231_1_alg».proof.Proof.Gen.KernelIdeal.Frame
import proofs.«112776_j38946763440231_1_alg».proof.Proof.Spec
import proofs.«112776_j38946763440231_1_alg».proof.Proof.Body
import Idealize.ShloMosaic.Lib.Pipeline.Value
import Idealize.ShloMosaic.Lib.ValueIdx

set_option maxRecDepth 16384

noncomputable section

open scoped BigOperators

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block index maps over the 50 grid points: at point t the aggregated rows, the degree column and the output all sit
    at block t along the node axis, and the bias row is always its one whole block. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- Entry (p, q) of what point t stores is entry (2000 t + p, q) of the post-aggregation of the whole arrays. -/
theorem key (c : Dev nD) (t : Fin cfg5.N) (p : Fin 2000) (q : Fin 128) :
    k5_pay1 (F := Ideal) (iblk5 V c 0 t) (iblk5 V c 1 t) (iblk5 V c 2 t) (ix2 p q)
      = Spec.postLin (V c main_v67) (V c main_v27) (V c main_v68) (((cfg5.win 3).blk t).view.emb (ix2 p q)) := by
  obtain ⟨e00, e01, e10, e11, e20, e21, e30, e31⟩ := idx_facts t
  refine (Body.k5_pay1_apply _ _ _ p q).trans ?_
  unfold Spec.postLin Spec.affAt
  refine congrArg₂ (· + ·) (congrArg₂ (· * ·) ?_ ?_) ?_
  · show V c main_v67 (((cfg5.win 0).blk t).view.emb (ix2 p q)) = V c main_v67 _
    refine congrArg _ (funext fun a => Fin.ext ?_)
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * q.val = win5_3.index t (1 : Fin 2) * 128 + 1 * q.val; omega
  · show V c main_v27 (((cfg5.win 1).blk t).view.emb (ix2 p 0)) = V c main_v27 _
    refine congrArg _ (funext fun a => Fin.ext ?_)
    match a with
    | ⟨0, _⟩ => show win5_1.index t (0 : Fin 2) * 2000 + 1 * p.val = win5_3.index t (0 : Fin 2) * 2000 + 1 * p.val; omega
    | ⟨1, _⟩ => show win5_1.index t (1 : Fin 2) * 1 + 1 * 0 = 0; omega
  · show V c main_v68 (((cfg5.win 2).blk t).view.emb (ix2 0 q)) = V c main_v68 _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega

/-- What point t writes back is block t of the post-aggregation of the arrays as the region finds them. -/
theorem flushed_eq (c : Dev nD) (t : Fin cfg5.N) :
    (dat5 V c).flushed 3 t = ((cfg5.win 3).blk t).view.read (Elt Ideal) (Spec.postLin (V c main_v67) (V c main_v27) (V c main_v68)) := by
  show (cfg5.win 3).cut (grid5.coords t) ((dat5 V c).after 3 t) = _
  rw [after5_3]
  unfold out5_3
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  exact key V c t p q

/-- An index of the output array lies in point t's block iff each coordinate lies in the block's range. -/
theorem mem_blk (t : Fin cfg5.N) (i : S100000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v69).slice (win5_3.rect t)).set ↔ _
  rw [View.set_slice_whole, Rect.mem_set_unit]
  exact Iff.rfl

/-- The fifty blocks of 2000 rows cover the 100000 rows: row r is in the block of point r / 2000. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 50 := N_5
  refine ⟨⟨(i 0).val / 2000, by rw [hN]; omega⟩, flush5_3 _, ?_⟩
  rw [mem_blk]
  obtain ⟨e00, e01, e10, e11, e20, e21, e30, e31⟩ := idx_facts ⟨(i 0).val / 2000, by rw [hN]; omega⟩
  intro a
  match a with
  | ⟨0, _⟩ => show win5_3.index _ (0 : Fin 2) * 2000 ≤ (i 0).val ∧ (i 0).val < win5_3.index _ (0 : Fin 2) * 2000 + 2000; rw [e30]; show (i 0).val / 2000 * 2000 ≤ _ ∧ _ < (i 0).val / 2000 * 2000 + 2000; omega
  | ⟨1, _⟩ => show win5_3.index _ (1 : Fin 2) * 128 ≤ (i 1).val ∧ (i 1).val < win5_3.index _ (1 : Fin 2) * 128 + 128; rw [e31]; omega

/-- The output array after the region: the post-aggregation of the arrays as the region finds them. -/
theorem final (c : Dev nD) :
    (dat5 V c).arrAt 3 cfg5.N = Spec.postLin (V c main_v67) (V c main_v27) (V c main_v68) :=
  (dat5 V c).arrAt_eq_of_cover 3 _ (fun t _ => flushed_eq V c t) (fun i => cover i)

end Cert.KernelIdeal.Region5

end
-- ==== Proof.Chase.lean ====
/-
  The contents of the TensorCore's buffers at the boundaries of the six kernel regions of the idealized kernel's @main.

  A region rewrites only its output array; its three input arrays and every other buffer leave as they entered. The output
  array leaves as the region's whole-array function (Spec.lean) of the input arrays as the region found them: the
  projection (rows times weights, scaled by the out-degree factor) for regions 0, 2, 4 and the post-aggregation (scaled by
  the in-degree factor, plus bias, clamped except in the last layer) for regions 1, 3, 5.
-/
import proofs.«112776_j38946763440231_1_alg».proof.Proof.Gen.KernelIdeal.Frame
import proofs.«112776_j38946763440231_1_alg».proof.Proof.Region0
import proofs.«112776_j38946763440231_1_alg».proof.Proof.Region1
import proofs.«112776_j38946763440231_1_alg».proof.Proof.Region2
import proofs.«112776_j38946763440231_1_alg».proof.Proof.Region3
import proofs.«112776_j38946763440231_1_alg».proof.Proof.Region4
import proofs.«112776_j38946763440231_1_alg».proof.Proof.Region5

set_option maxRecDepth 16384

noncomputable section

namespace Cert.KernelIdeal.Chase

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## Region 0: what `W6` holds, from what `W5` holds -/

/-- A buffer that is none of the region's four arrays keeps its contents. -/
theorem W6_ne (b : Ref sig .tc) (hb : ∀ w, Pipeline.arrRef spec0 w ≠ b) :
    W6 m ρ c (no_index (Proc.devRef .tc b)) = W5 m ρ c (Proc.devRef .tc b) := W6_of_ne m ρ c b hb
/-- Input array 0 is only read. -/
theorem W6_in0 : W6 m ρ c (no_index (Proc.devRef .tc main_v6)) = W5 m ρ c (Proc.devRef .tc main_v6) :=
  (W6_arr m ρ c 0).trans (((dat0 (V5 m ρ) c).arrAt_in 0 rfl _).trans (A_eq0 (V5 m ρ) c 0))
/-- Input array 1 is only read. -/
theorem W6_in1 : W6 m ρ c (no_index (Proc.devRef .tc main_arg4)) = W5 m ρ c (Proc.devRef .tc main_arg4) :=
  (W6_arr m ρ c 1).trans (((dat0 (V5 m ρ) c).arrAt_in 1 rfl _).trans (A_eq0 (V5 m ρ) c 1))
/-- Input array 2 is only read. -/
theorem W6_in2 : W6 m ρ c (no_index (Proc.devRef .tc main_v26)) = W5 m ρ c (Proc.devRef .tc main_v26) :=
  (W6_arr m ρ c 2).trans (((dat0 (V5 m ρ) c).arrAt_in 2 rfl _).trans (A_eq0 (V5 m ρ) c 2))
/-- The output array ends at the region's function of the three input arrays as the region found them. -/
theorem W6_out : W6 m ρ c (no_index (Proc.devRef .tc main_v28))
    = Spec.proj256 (W5 m ρ c (Proc.devRef .tc main_v6)) (W5 m ρ c (Proc.devRef .tc main_arg4)) (W5 m ρ c (Proc.devRef .tc main_v26)) :=
  (W6_arr m ρ c 3).trans (Region0.final (V5 m ρ) c)

/-! ## Region 1: what `W8` holds, from what `W7` holds -/

/-- A buffer that is none of the region's four arrays keeps its contents. -/
theorem W8_ne (b : Ref sig .tc) (hb : ∀ w, Pipeline.arrRef spec1 w ≠ b) :
    W8 m ρ c (no_index (Proc.devRef .tc b)) = W7 m ρ c (Proc.devRef .tc b) := W8_of_ne m ρ c b hb
/-- Input array 0 is only read. -/
theorem W8_in0 : W8 m ρ c (no_index (Proc.devRef .tc main_v39)) = W7 m ρ c (Proc.devRef .tc main_v39) :=
  (W8_arr m ρ c 0).trans (((dat1 (V7 m ρ) c).arrAt_in 0 rfl _).trans (A_eq1 (V7 m ρ) c 0))
/-- Input array 1 is only read. -/
theorem W8_in1 : W8 m ρ c (no_index (Proc.devRef .tc main_v27)) = W7 m ρ c (Proc.devRef .tc main_v27) :=
  (W8_arr m ρ c 1).trans (((dat1 (V7 m ρ) c).arrAt_in 1 rfl _).trans (A_eq1 (V7 m ρ) c 1))
/-- Input array 2 is only read. -/
theorem W8_in2 : W8 m ρ c (no_index (Proc.devRef .tc main_v40)) = W7 m ρ c (Proc.devRef .tc main_v40) :=
  (W8_arr m ρ c 2).trans (((dat1 (V7 m ρ) c).arrAt_in 2 rfl _).trans (A_eq1 (V7 m ρ) c 2))
/-- The output array ends at the region's function of the three input arrays as the region found them. -/
theorem W8_out : W8 m ρ c (no_index (Proc.devRef .tc main_v41))
    = Spec.postRelu (W7 m ρ c (Proc.devRef .tc main_v39)) (W7 m ρ c (Proc.devRef .tc main_v27)) (W7 m ρ c (Proc.devRef .tc main_v40)) :=
  (W8_arr m ρ c 3).trans (Region1.final (V7 m ρ) c)

/-! ## Region 2: what `W9` holds, from what `W8` holds -/

/-- A buffer that is none of the region's four arrays keeps its contents. -/
theorem W9_ne (b : Ref sig .tc) (hb : ∀ w, Pipeline.arrRef spec2 w ≠ b) :
    W9 m ρ c (no_index (Proc.devRef .tc b)) = W8 m ρ c (Proc.devRef .tc b) := W9_of_ne m ρ c b hb
/-- Input array 0 is only read. -/
theorem W9_in0 : W9 m ρ c (no_index (Proc.devRef .tc main_v41)) = W8 m ρ c (Proc.devRef .tc main_v41) :=
  (W9_arr m ρ c 0).trans (((dat2 (V8 m ρ) c).arrAt_in 0 rfl _).trans (A_eq2 (V8 m ρ) c 0))
/-- Input array 1 is only read. -/
theorem W9_in1 : W9 m ρ c (no_index (Proc.devRef .tc main_arg6)) = W8 m ρ c (Proc.devRef .tc main_arg6) :=
  (W9_arr m ρ c 1).trans (((dat2 (V8 m ρ) c).arrAt_in 1 rfl _).trans (A_eq2 (V8 m ρ) c 1))
/-- Input array 2 is only read. -/
theorem W9_in2 : W9 m ρ c (no_index (Proc.devRef .tc main_v26)) = W8 m ρ c (Proc.devRef .tc main_v26) :=
  (W9_arr m ρ c 2).trans (((dat2 (V8 m ρ) c).arrAt_in 2 rfl _).trans (A_eq2 (V8 m ρ) c 2))
/-- The output array ends at the region's function of the three input arrays as the region found them. -/
theorem W9_out : W9 m ρ c (no_index (Proc.devRef .tc main_v42))
    = Spec.proj128 (W8 m ρ c (Proc.devRef .tc main_v41)) (W8 m ρ c (Proc.devRef .tc main_arg6)) (W8 m ρ c (Proc.devRef .tc main_v26)) :=
  (W9_arr m ρ c 3).trans (Region2.final (V8 m ρ) c)

/-! ## Region 3: what `W11` holds, from what `W10` holds -/

/-- A buffer that is none of the region's four arrays keeps its contents. -/
theorem W11_ne (b : Ref sig .tc) (hb : ∀ w, Pipeline.arrRef spec3 w ≠ b) :
    W11 m ρ c (no_index (Proc.devRef .tc b)) = W10 m ρ c (Proc.devRef .tc b) := W11_of_ne m ρ c b hb
/-- Input array 0 is only read. -/
theorem W11_in0 : W11 m ρ c (no_index (Proc.devRef .tc main_v53)) = W10 m ρ c (Proc.devRef .tc main_v53) :=
  (W11_arr m ρ c 0).trans (((dat3 (V10 m ρ) c).arrAt_in 0 rfl _).trans (A_eq3 (V10 m ρ) c 0))
/-- Input array 1 is only read. -/
theorem W11_in1 : W11 m ρ c (no_index (Proc.devRef .tc main_v27)) = W10 m ρ c (Proc.devRef .tc main_v27) :=
  (W11_arr m ρ c 1).trans (((dat3 (V10 m ρ) c).arrAt_in 1 rfl _).trans (A_eq3 (V10 m ρ) c 1))
/-- Input array 2 is only read. -/
theorem W11_in2 : W11 m ρ c (no_index (Proc.devRef .tc main_v54)) = W10 m ρ c (Proc.devRef .tc main_v54) :=
  (W11_arr m ρ c 2).trans (((dat3 (V10 m ρ) c).arrAt_in 2 rfl _).trans (A_eq3 (V10 m ρ) c 2))
/-- The output array ends at the region's function of the three input arrays as the region found them. -/
theorem W11_out : W11 m ρ c (no_index (Proc.devRef .tc main_v55))
    = Spec.postRelu (W10 m ρ c (Proc.devRef .tc main_v53)) (W10 m ρ c (Proc.devRef .tc main_v27)) (W10 m ρ c (Proc.devRef .tc main_v54)) :=
  (W11_arr m ρ c 3).trans (Region3.final (V10 m ρ) c)

/-! ## Region 4: what `W12` holds, from what `W11` holds -/

/-- A buffer that is none of the region's four arrays keeps its contents. -/
theorem W12_ne (b : Ref sig .tc) (hb : ∀ w, Pipeline.arrRef spec4 w ≠ b) :
    W12 m ρ c (no_index (Proc.devRef .tc b)) = W11 m ρ c (Proc.devRef .tc b) := W12_of_ne m ρ c b hb
/-- Input array 0 is only read. -/
theorem W12_in0 : W12 m ρ c (no_index (Proc.devRef .tc main_v55)) = W11 m ρ c (Proc.devRef .tc main_v55) :=
  (W12_arr m ρ c 0).trans (((dat4 (V11 m ρ) c).arrAt_in 0 rfl _).trans (A_eq4 (V11 m ρ) c 0))
/-- Input array 1 is only read. -/
theorem W12_in1 : W12 m ρ c (no_index (Proc.devRef .tc main_arg8)) = W11 m ρ c (Proc.devRef .tc main_arg8) :=
  (W12_arr m ρ c 1).trans (((dat4 (V11 m ρ) c).arrAt_in 1 rfl _).trans (A_eq4 (V11 m ρ) c 1))
/-- Input array 2 is only read. -/
theorem W12_in2 : W12 m ρ c (no_index (Proc.devRef .tc main_v26)) = W11 m ρ c (Proc.devRef .tc main_v26) :=
  (W12_arr m ρ c 2).trans (((dat4 (V11 m ρ) c).arrAt_in 2 rfl _).trans (A_eq4 (V11 m ρ) c 2))
/-- The output array ends at the region's function of the three input arrays as the region found them. -/
theorem W12_out : W12 m ρ c (no_index (Proc.devRef .tc main_v56))
    = Spec.proj128 (W11 m ρ c (Proc.devRef .tc main_v55)) (W11 m ρ c (Proc.devRef .tc main_arg8)) (W11 m ρ c (Proc.devRef .tc main_v26)) :=
  (W12_arr m ρ c 3).trans (Region4.final (V11 m ρ) c)

/-! ## Region 5: what `W14` holds, from what `W13` holds -/

/-- A buffer that is none of the region's four arrays keeps its contents. -/
theorem W14_ne (b : Ref sig .tc) (hb : ∀ w, Pipeline.arrRef spec5 w ≠ b) :
    W14 m ρ c (no_index (Proc.devRef .tc b)) = W13 m ρ c (Proc.devRef .tc b) := W14_of_ne m ρ c b hb
/-- Input array 0 is only read. -/
theorem W14_in0 : W14 m ρ c (no_index (Proc.devRef .tc main_v67)) = W13 m ρ c (Proc.devRef .tc main_v67) :=
  (W14_arr m ρ c 0).trans (((dat5 (V13 m ρ) c).arrAt_in 0 rfl _).trans (A_eq5 (V13 m ρ) c 0))
/-- Input array 1 is only read. -/
theorem W14_in1 : W14 m ρ c (no_index (Proc.devRef .tc main_v27)) = W13 m ρ c (Proc.devRef .tc main_v27) :=
  (W14_arr m ρ c 1).trans (((dat5 (V13 m ρ) c).arrAt_in 1 rfl _).trans (A_eq5 (V13 m ρ) c 1))
/-- Input array 2 is only read. -/
theorem W14_in2 : W14 m ρ c (no_index (Proc.devRef .tc main_v68)) = W13 m ρ c (Proc.devRef .tc main_v68) :=
  (W14_arr m ρ c 2).trans (((dat5 (V13 m ρ) c).arrAt_in 2 rfl _).trans (A_eq5 (V13 m ρ) c 2))
/-- The output array ends at the region's function of the three input arrays as the region found them. -/
theorem W14_out : W14 m ρ c (no_index (Proc.devRef .tc main_v69))
    = Spec.postLin (W13 m ρ c (Proc.devRef .tc main_v67)) (W13 m ρ c (Proc.devRef .tc main_v27)) (W13 m ρ c (Proc.devRef .tc main_v68)) :=
  (W14_arr m ρ c 3).trans (Region5.final (V13 m ρ) c)

end Cert.KernelIdeal.Chase

end
-- ==== Proof.HostSteps.lean ====
/-
  The host operations of the idealized kernel's @main, read as three named functions.

  Before the first region the host permutes the node features (a gather along the permutation, negative entries wrapped
  once), and computes the two degree factors: the edge endpoints are counted by a scatter-add of ones, and a node's factor
  is the inverse square root of its count where the count is positive, zero otherwise. Between a projection region and the
  next post-aggregation region the host aggregates along the edges: it gathers the projected rows at the edge sources
  (negative entries wrapped once) and scatter-adds them at the edge destinations, into zeros. The degree factors are
  reshaped to columns and each bias to a row. These facts hold for any float arithmetic; nothing here depends on what the
  operations compute.
-/
import proofs.«112776_j38946763440231_1_alg».proof.Proof.Gen.KernelIdeal.Frame
import Idealize.ShloMosaic.Lib.StableHlo.Run

set_option maxRecDepth 16384

noncomputable section

namespace Cert.KernelIdeal.HostSteps

open Idealize.ShloMosaic Idealize.ShloMosaic.TcCoe Idealize.SL.Sem Idealize.ShloMosaic.StableHlo
open Cert.KernelIdeal Cert.KernelIdeal.Gen

variable {F : FTy → Type} [FloatOps F]

/-- The node features permuted: row r is row perm(r) of the features, a negative perm(r) wrapped by 100000. -/
def permuted (x : Vec F S100000x256 .f32) (p : IVec S100000 32) : Vec F S100000x256 .f32 :=
  Host.gather gather_S100000x256_S100000x1_S100000x256_1_0_n_n_0_1_1256 x (broadcastInDim S100000x1 ![0] bcast_S100000_S100000x1_0 (select (cmpi .slt p (broadcastInDim S100000 ![] bcast_S_S100000 (constantI S_ 32 0#32))) (addi p (broadcastInDim S100000 ![] bcast_S_S100000 (constantI S_ 32 100000#32))) p))

/-- The degree factor of every node from one endpoint of every edge: count the endpoint's occurrences; the factor is the
    inverse square root of the count (clamped below at one) where the count is positive, and zero elsewhere. -/
def degFactor (e : IVec S1600000 32) : FVec F S100000 .f32 :=
  select (cmpf .ogt (Host.scatterAdd scatter_S100000_S1600000x1_S1600000_n_0_0_1 (broadcastInDim S100000 ![] bcast_S_S100000 (constant (F := F) S_ .f32 0x00000000#32)) (broadcastInDim S1600000x1 ![0] bcast_S1600000_S1600000x1_0 e) (broadcastInDim S1600000 ![] bcast_S_S1600000 (constant (F := F) S_ .f32 0x3F800000#32))) (broadcastInDim S100000 ![] bcast_S_S100000 (constant (F := F) S_ .f32 0x00000000#32)))
    (Host.rsqrt (maximumf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 e) (broadcastInDim S1600000 ![] bcast_S_S1600000 (constant (F := F) S_ .f32 0x3F800000#32))) (broadcastInDim S100000 ![] bcast_S_S100000 (constant (F := F) S_ .f32 0x3F800000#32))))
    (broadcastInDim S100000 ![] bcast_S_S100000 (id (constant (F := F) S_ .f32 0x00000000#32)))

/-- The aggregation along the edges: the rows of y at the edge sources (a negative source wrapped by 100000), widened,
    summed into the rows at the edge destinations, starting from zeros. -/
def aggregate (y : Vec F S100000x128 .bf16) (s d : IVec S1600000 32) : Vec F S100000x128 .f32 :=
  Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 d) (extf .f32 (Host.gather gather_S100000x128_S1600000x1_S1600000x128_1_0_n_n_0_1_1128 y (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s))) bitsLt_bf16_f32)

variable (m : (ℓ : Loc nD τ sig) → Buf (Elt F) ℓ) (ρ : Dev nD → PrngReg) (c : Dev nD)

/-! ## What the first region finds -/

set_option maxHeartbeats 2000000 in
/-- The permuted features. -/
theorem W5_v6 : W5 (F := F) m ρ c (no_index (Proc.devRef .tc main_v6))
    = permuted (m ((c.tc : Thread nD τ).loc main_arg0)) (m ((c.tc : Thread nD τ).loc main_arg3)) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

set_option maxHeartbeats 2000000 in
/-- The out-degree factors, as a column. -/
theorem W5_v26 : W5 (F := F) m ρ c (no_index (Proc.devRef .tc main_v26))
    = fun i => shapeCast S100000x1 (degFactor (F := F) (m ((c.tc : Thread nD τ).loc main_arg1))) shapeCasts_S100000_S100000x1 i := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

set_option maxHeartbeats 2000000 in
/-- The in-degree factors, as a column. -/
theorem W5_v27 : W5 (F := F) m ρ c (no_index (Proc.devRef .tc main_v27))
    = fun i => shapeCast S100000x1 (degFactor (F := F) (m ((c.tc : Thread nD τ).loc main_arg2))) shapeCasts_S100000_S100000x1 i := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rfl

set_option maxHeartbeats 2000000 in
/-- Argument 1 as launched. -/
theorem W5_arg1 : W5 (F := F) m ρ c (no_index (Proc.devRef .tc main_arg1)) = m ((c.tc : Thread nD τ).loc main_arg1) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 2000000 in
/-- Argument 2 as launched. -/
theorem W5_arg2 : W5 (F := F) m ρ c (no_index (Proc.devRef .tc main_arg2)) = m ((c.tc : Thread nD τ).loc main_arg2) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 2000000 in
/-- Argument 4 as launched. -/
theorem W5_arg4 : W5 (F := F) m ρ c (no_index (Proc.devRef .tc main_arg4)) = m ((c.tc : Thread nD τ).loc main_arg4) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 2000000 in
/-- Argument 5 as launched. -/
theorem W5_arg5 : W5 (F := F) m ρ c (no_index (Proc.devRef .tc main_arg5)) = m ((c.tc : Thread nD τ).loc main_arg5) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 2000000 in
/-- Argument 6 as launched. -/
theorem W5_arg6 : W5 (F := F) m ρ c (no_index (Proc.devRef .tc main_arg6)) = m ((c.tc : Thread nD τ).loc main_arg6) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 2000000 in
/-- Argument 7 as launched. -/
theorem W5_arg7 : W5 (F := F) m ρ c (no_index (Proc.devRef .tc main_arg7)) = m ((c.tc : Thread nD τ).loc main_arg7) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 2000000 in
/-- Argument 8 as launched. -/
theorem W5_arg8 : W5 (F := F) m ρ c (no_index (Proc.devRef .tc main_arg8)) = m ((c.tc : Thread nD τ).loc main_arg8) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

set_option maxHeartbeats 2000000 in
/-- Argument 9 as launched. -/
theorem W5_arg9 : W5 (F := F) m ρ c (no_index (Proc.devRef .tc main_arg9)) = m ((c.tc : Thread nD τ).loc main_arg9) := by
  simp (disch := decide) only [W5, W4, W3, W2, W1, W0, hostOps0_4, hostOps0_3, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

/-! ## The three stretches between a projection region and the next post-aggregation region -/

/-- After `hostOps1`: the aggregate of the projected rows. -/
theorem W7_agg : W7 (F := F) m ρ c (no_index (Proc.devRef .tc main_v39))
    = aggregate (W6 m ρ c (Proc.devRef .tc main_v28)) (W6 m ρ c (Proc.devRef .tc main_arg1)) (W6 m ρ c (Proc.devRef .tc main_arg2)) := by
  show StableHlo.after hostOps1 (W6 m ρ c) _ = _
  simp (disch := decide) only [hostOps1, after_cons, after_nil,
    nullary_result', unary_result', binary_result', ternary_result', reshape_result',
    nullary_result_ne', unary_result_ne', binary_result_ne', ternary_result_ne', reshape_result_ne']
  rfl

/-- After `hostOps1`: the layer's bias as a row. -/
theorem W7_row : W7 (F := F) m ρ c (no_index (Proc.devRef .tc main_v40))
    = fun i => shapeCast S1x128 (W6 m ρ c (Proc.devRef .tc main_arg5)) shapeCasts_S128_S1x128 i := by
  show StableHlo.after hostOps1 (W6 m ρ c) _ = _
  simp (disch := decide) only [hostOps1, after_cons, after_nil,
    nullary_result', unary_result', binary_result', ternary_result', reshape_result',
    nullary_result_ne', unary_result_ne', binary_result_ne', ternary_result_ne', reshape_result_ne']
  rfl

/-- `hostOps1` does not write main_v26. -/
theorem W7_keep_v26 : W7 (F := F) m ρ c (no_index (Proc.devRef .tc main_v26)) = W6 m ρ c (Proc.devRef .tc main_v26) := by
  show StableHlo.after hostOps1 (W6 m ρ c) _ = _
  simp (disch := decide) only [hostOps1, after_cons, after_nil,
    nullary_result_ne', unary_result_ne', binary_result_ne', ternary_result_ne', reshape_result_ne']

/-- `hostOps1` does not write main_v27. -/
theorem W7_keep_v27 : W7 (F := F) m ρ c (no_index (Proc.devRef .tc main_v27)) = W6 m ρ c (Proc.devRef .tc main_v27) := by
  show StableHlo.after hostOps1 (W6 m ρ c) _ = _
  simp (disch := decide) only [hostOps1, after_cons, after_nil,
    nullary_result_ne', unary_result_ne', binary_result_ne', ternary_result_ne', reshape_result_ne']

/-- `hostOps1` does not write main_arg1. -/
theorem W7_keep_arg1 : W7 (F := F) m ρ c (no_index (Proc.devRef .tc main_arg1)) = W6 m ρ c (Proc.devRef .tc main_arg1) := by
  show StableHlo.after hostOps1 (W6 m ρ c) _ = _
  simp (disch := decide) only [hostOps1, after_cons, after_nil,
    nullary_result_ne', unary_result_ne', binary_result_ne', ternary_result_ne', reshape_result_ne']

/-- `hostOps1` does not write main_arg2. -/
theorem W7_keep_arg2 : W7 (F := F) m ρ c (no_index (Proc.devRef .tc main_arg2)) = W6 m ρ c (Proc.devRef .tc main_arg2) := by
  show StableHlo.after hostOps1 (W6 m ρ c) _ = _
  simp (disch := decide) only [hostOps1, after_cons, after_nil,
    nullary_result_ne', unary_result_ne', binary_result_ne', ternary_result_ne', reshape_result_ne']

/-- `hostOps1` does not write main_arg6. -/
theorem W7_keep_arg6 : W7 (F := F) m ρ c (no_index (Proc.devRef .tc main_arg6)) = W6 m ρ c (Proc.devRef .tc main_arg6) := by
  show StableHlo.after hostOps1 (W6 m ρ c) _ = _
  simp (disch := decide) only [hostOps1, after_cons, after_nil,
    nullary_result_ne', unary_result_ne', binary_result_ne', ternary_result_ne', reshape_result_ne']

/-- `hostOps1` does not write main_arg7. -/
theorem W7_keep_arg7 : W7 (F := F) m ρ c (no_index (Proc.devRef .tc main_arg7)) = W6 m ρ c (Proc.devRef .tc main_arg7) := by
  show StableHlo.after hostOps1 (W6 m ρ c) _ = _
  simp (disch := decide) only [hostOps1, after_cons, after_nil,
    nullary_result_ne', unary_result_ne', binary_result_ne', ternary_result_ne', reshape_result_ne']

/-- `hostOps1` does not write main_arg8. -/
theorem W7_keep_arg8 : W7 (F := F) m ρ c (no_index (Proc.devRef .tc main_arg8)) = W6 m ρ c (Proc.devRef .tc main_arg8) := by
  show StableHlo.after hostOps1 (W6 m ρ c) _ = _
  simp (disch := decide) only [hostOps1, after_cons, after_nil,
    nullary_result_ne', unary_result_ne', binary_result_ne', ternary_result_ne', reshape_result_ne']

/-- `hostOps1` does not write main_arg9. -/
theorem W7_keep_arg9 : W7 (F := F) m ρ c (no_index (Proc.devRef .tc main_arg9)) = W6 m ρ c (Proc.devRef .tc main_arg9) := by
  show StableHlo.after hostOps1 (W6 m ρ c) _ = _
  simp (disch := decide) only [hostOps1, after_cons, after_nil,
    nullary_result_ne', unary_result_ne', binary_result_ne', ternary_result_ne', reshape_result_ne']

/-- After `hostOps3`: the aggregate of the projected rows. -/
theorem W10_agg : W10 (F := F) m ρ c (no_index (Proc.devRef .tc main_v53))
    = aggregate (W9 m ρ c (Proc.devRef .tc main_v42)) (W9 m ρ c (Proc.devRef .tc main_arg1)) (W9 m ρ c (Proc.devRef .tc main_arg2)) := by
  show StableHlo.after hostOps3 (W9 m ρ c) _ = _
  simp (disch := decide) only [hostOps3, after_cons, after_nil,
    nullary_result', unary_result', binary_result', ternary_result', reshape_result',
    nullary_result_ne', unary_result_ne', binary_result_ne', ternary_result_ne', reshape_result_ne']
  rfl

/-- After `hostOps3`: the layer's bias as a row. -/
theorem W10_row : W10 (F := F) m ρ c (no_index (Proc.devRef .tc main_v54))
    = fun i => shapeCast S1x128 (W9 m ρ c (Proc.devRef .tc main_arg7)) shapeCasts_S128_S1x128 i := by
  show StableHlo.after hostOps3 (W9 m ρ c) _ = _
  simp (disch := decide) only [hostOps3, after_cons, after_nil,
    nullary_result', unary_result', binary_result', ternary_result', reshape_result',
    nullary_result_ne', unary_result_ne', binary_result_ne', ternary_result_ne', reshape_result_ne']
  rfl

/-- `hostOps3` does not write main_v26. -/
theorem W10_keep_v26 : W10 (F := F) m ρ c (no_index (Proc.devRef .tc main_v26)) = W9 m ρ c (Proc.devRef .tc main_v26) := by
  show StableHlo.after hostOps3 (W9 m ρ c) _ = _
  simp (disch := decide) only [hostOps3, after_cons, after_nil,
    nullary_result_ne', unary_result_ne', binary_result_ne', ternary_result_ne', reshape_result_ne']

/-- `hostOps3` does not write main_v27. -/
theorem W10_keep_v27 : W10 (F := F) m ρ c (no_index (Proc.devRef .tc main_v27)) = W9 m ρ c (Proc.devRef .tc main_v27) := by
  show StableHlo.after hostOps3 (W9 m ρ c) _ = _
  simp (disch := decide) only [hostOps3, after_cons, after_nil,
    nullary_result_ne', unary_result_ne', binary_result_ne', ternary_result_ne', reshape_result_ne']

/-- `hostOps3` does not write main_arg1. -/
theorem W10_keep_arg1 : W10 (F := F) m ρ c (no_index (Proc.devRef .tc main_arg1)) = W9 m ρ c (Proc.devRef .tc main_arg1) := by
  show StableHlo.after hostOps3 (W9 m ρ c) _ = _
  simp (disch := decide) only [hostOps3, after_cons, after_nil,
    nullary_result_ne', unary_result_ne', binary_result_ne', ternary_result_ne', reshape_result_ne']

/-- `hostOps3` does not write main_arg2. -/
theorem W10_keep_arg2 : W10 (F := F) m ρ c (no_index (Proc.devRef .tc main_arg2)) = W9 m ρ c (Proc.devRef .tc main_arg2) := by
  show StableHlo.after hostOps3 (W9 m ρ c) _ = _
  simp (disch := decide) only [hostOps3, after_cons, after_nil,
    nullary_result_ne', unary_result_ne', binary_result_ne', ternary_result_ne', reshape_result_ne']

/-- `hostOps3` does not write main_arg8. -/
theorem W10_keep_arg8 : W10 (F := F) m ρ c (no_index (Proc.devRef .tc main_arg8)) = W9 m ρ c (Proc.devRef .tc main_arg8) := by
  show StableHlo.after hostOps3 (W9 m ρ c) _ = _
  simp (disch := decide) only [hostOps3, after_cons, after_nil,
    nullary_result_ne', unary_result_ne', binary_result_ne', ternary_result_ne', reshape_result_ne']

/-- `hostOps3` does not write main_arg9. -/
theorem W10_keep_arg9 : W10 (F := F) m ρ c (no_index (Proc.devRef .tc main_arg9)) = W9 m ρ c (Proc.devRef .tc main_arg9) := by
  show StableHlo.after hostOps3 (W9 m ρ c) _ = _
  simp (disch := decide) only [hostOps3, after_cons, after_nil,
    nullary_result_ne', unary_result_ne', binary_result_ne', ternary_result_ne', reshape_result_ne']

/-- After `hostOps5`: the aggregate of the projected rows. -/
theorem W13_agg : W13 (F := F) m ρ c (no_index (Proc.devRef .tc main_v67))
    = aggregate (W12 m ρ c (Proc.devRef .tc main_v56)) (W12 m ρ c (Proc.devRef .tc main_arg1)) (W12 m ρ c (Proc.devRef .tc main_arg2)) := by
  show StableHlo.after hostOps5 (W12 m ρ c) _ = _
  simp (disch := decide) only [hostOps5, after_cons, after_nil,
    nullary_result', unary_result', binary_result', ternary_result', reshape_result',
    nullary_result_ne', unary_result_ne', binary_result_ne', ternary_result_ne', reshape_result_ne']
  rfl

/-- After `hostOps5`: the layer's bias as a row. -/
theorem W13_row : W13 (F := F) m ρ c (no_index (Proc.devRef .tc main_v68))
    = fun i => shapeCast S1x128 (W12 m ρ c (Proc.devRef .tc main_arg9)) shapeCasts_S128_S1x128 i := by
  show StableHlo.after hostOps5 (W12 m ρ c) _ = _
  simp (disch := decide) only [hostOps5, after_cons, after_nil,
    nullary_result', unary_result', binary_result', ternary_result', reshape_result',
    nullary_result_ne', unary_result_ne', binary_result_ne', ternary_result_ne', reshape_result_ne']
  rfl

/-- `hostOps5` does not write main_v27. -/
theorem W13_keep_v27 : W13 (F := F) m ρ c (no_index (Proc.devRef .tc main_v27)) = W12 m ρ c (Proc.devRef .tc main_v27) := by
  show StableHlo.after hostOps5 (W12 m ρ c) _ = _
  simp (disch := decide) only [hostOps5, after_cons, after_nil,
    nullary_result_ne', unary_result_ne', binary_result_ne', ternary_result_ne', reshape_result_ne']

end Cert.KernelIdeal.HostSteps

end
-- ==== Proof.Forms.lean ====
/-
  The reference's host operations for one layer, read as the whole-array functions of Spec.lean.

  The reference scales by a degree factor by spreading the vector of factors first to a column and then along the 128
  features, and adds the bias by spreading it first to a row and then down the 100000 nodes; the kernel reshapes the
  factors to a column and the bias to a row and lets the body spread them. Entry by entry these are the same numbers:
  (Σ_k h(r,k) w(k,q)) · s(r)  and  a(r,q) · s(r) + b(q).
-/
import proofs.«112776_j38946763440231_1_alg».proof.ReferenceIdeal
import proofs.«112776_j38946763440231_1_alg».proof.Proof.Gen.ReferenceIdeal
import proofs.«112776_j38946763440231_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Forms

open Idealize.ShloMosaic Idealize.ShloMosaic.ValueIdx Cert.ReferenceIdeal Cert.ReferenceIdeal.Gen

/-! ## The degree factors as a column, the bias as a row -/

/-- The vector of per-node factors spread to a column and then along the features reads, at (r, q), node r's factor. -/
theorem colB_apply (s : FVec Ideal S100000 .f32) (r : Fin 100000) (q : Fin 128) :
    broadcastInDim S100000x128 ![0, 1] bcast_S100000x1_S100000x128_0_1 (broadcastInDim S100000x1 ![0] bcast_S100000_S100000x1_0 s) (ix2 r q)
      = s (ix1 r) := by
  refine (broadcastInDim_apply _ bcast_S100000x1_S100000x128_0_1 _ (ix2 r q) (ix2 r 0) (fun a => match a with
    | ⟨0, _⟩ => by show r.val = if (100000 : Nat) = 1 then 0 else r.val; rw [if_neg (by decide)]
    | ⟨1, _⟩ => by show (0 : Nat) = if (1 : Nat) = 1 then 0 else q.val; rw [if_pos rfl])).trans ?_
  exact broadcastInDim_apply _ bcast_S100000_S100000x1_0 s (ix2 r 0) (ix1 r) (fun a => match a with
    | ⟨0, _⟩ => by show r.val = if (100000 : Nat) = 1 then 0 else r.val; rw [if_neg (by decide)])

/-- The vector of per-node factors reshaped to a column reads, at (r, 0), node r's factor. -/
theorem colS_apply (s : FVec Ideal S100000 .f32) (sc : S100000.ShapeCasts S100000x1) (r : Fin 100000) (u : Fin 1) :
    shapeCast S100000x1 s sc (ix2 r u) = s (ix1 r) :=
  shapeCast_apply s sc _ _ (by
    have hu : u.val = 0 := by omega
    rw [Shape.rowMajor_val_two, Shape.rowMajor_val_one]
    show r.val = r.val * 1 + u.val
    omega)

/-- The bias spread to a row and then down the nodes reads, at (r, q), feature q's bias. -/
theorem rowB_apply (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) := by
  refine (broadcastInDim_apply _ bcast_S1x128_S100000x128_0_1 _ (ix2 r q) (ix2 0 q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 0 q) (ix1 q) (fun a => match a with
    | ⟨0, _⟩ => by show q.val = if (128 : Nat) = 1 then 0 else q.val; rw [if_neg (by decide)])

/-- The bias reshaped to a row reads, at (0, q), feature q's bias. -/
theorem rowS_apply (b : FVec Ideal S128 .f32) (sc : S128.ShapeCasts S1x128) (u : Fin 1) (q : Fin 128) :
    shapeCast S1x128 b sc (ix2 u q) = b (ix1 q) :=
  shapeCast_apply b sc _ _ (by
    have hu : u.val = 0 := by omega
    rw [Shape.rowMajor_val_two, Shape.rowMajor_val_one]
    show q.val = u.val * 128 + q.val
    omega)

/-! ## The host's matrix products at an index -/

theorem lhs256_0 (i : S100000x128.Idx) (q : dot_S100000x256_S256x128_S100000x128_1_0_0_1_n_n.contr.Idx) : (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem lhs256_1 (i : S100000x128.Idx) (q : dot_S100000x256_S256x128_S100000x128_1_0_0_1_n_n.contr.Idx) : (dot_S100000x256_S256x128_S100000x128_1_0_0_1_n_n.lhsIdx i q 1).val = (q ⟨0, by decide⟩).val :=
  dot_S100000x256_S256x128_S100000x128_1_0_0_1_n_n.lhsIdx_val_of_single rfl i q
theorem rhs256_0 (i : S100000x128.Idx) (q : dot_S100000x256_S256x128_S100000x128_1_0_0_1_n_n.contr.Idx) : (dot_S100000x256_S256x128_S100000x128_1_0_0_1_n_n.rhsIdx i q 0).val = (q ⟨0, by decide⟩).val :=
  dot_S100000x256_S256x128_S100000x128_1_0_0_1_n_n.rhsIdx_val_of_single rfl i q
theorem rhs256_1 (i : S100000x128.Idx) (q : dot_S100000x256_S256x128_S100000x128_1_0_0_1_n_n.contr.Idx) : (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The host's matrix product read at (r, q): the sum over the contracted coordinate k of h(r, k) · w(k, q). -/
theorem dot256_apply (h : FVec Ideal S100000x256 .f32) (w : FVec Ideal S256x128 .f32) (r : Fin 100000) (q : Fin 128) :
    Host.dotGeneral dot_S100000x256_S256x128_S100000x128_1_0_0_1_n_n none h w (ix2 r q) = ∑ k : Fin 256, h (ix2 r k) * w (ix2 k q) := by
  simp only [Host.dotGeneral]
  rw [Ideal.dotGeneral_apply, ← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  have el : dot_S100000x256_S256x128_S100000x128_1_0_0_1_n_n.lhsIdx (ix2 r q) ((contrEquiv1 dot_S100000x256_S256x128_S100000x128_1_0_0_1_n_n 256 rfl rfl).symm k) = ix2 r k := funext fun a => Fin.ext (by
    match a with
    | ⟨0, _⟩ => exact lhs256_0 _ _
    | ⟨1, _⟩ => exact (lhs256_1 _ _).trans hk)
  have er : dot_S100000x256_S256x128_S100000x128_1_0_0_1_n_n.rhsIdx (ix2 r q) ((contrEquiv1 dot_S100000x256_S256x128_S100000x128_1_0_0_1_n_n 256 rfl rfl).symm k) = ix2 k q := funext fun a => Fin.ext (by
    match a with
    | ⟨0, _⟩ => exact (rhs256_0 _ _).trans hk
    | ⟨1, _⟩ => exact rhs256_1 _ _)
  rw [el, er]

theorem lhs128_0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's matrix product read at (r, q): the sum over the contracted coordinate k of h(r, k) · w(k, q). -/
theorem dot128_apply (h : FVec Ideal S100000x128 .f32) (w : FVec Ideal S128x128 .f32) (r : Fin 100000) (q : Fin 128) :
    Host.dotGeneral dot_S100000x128_S128x128_S100000x128_1_0_0_1_n_n none h w (ix2 r q) = ∑ k : Fin 128, h (ix2 r k) * w (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q) ((contrEquiv1 dot_S100000x128_S128x128_S100000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 r q) ((contrEquiv1 dot_S100000x128_S128x128_S100000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## One layer's two halves -/

/-- The reference's projection — the matrix product times the out-degree factors spread along the rows — is the
    projection of Spec.lean, the factors taken as a column. -/
theorem proj256_form (h : FVec Ideal S100000x256 .f32) (w : FVec Ideal S256x128 .f32) (s : FVec Ideal S100000 .f32) (sc : S100000.ShapeCasts S100000x1) :
    mulf (Host.dotGeneral dot_S100000x256_S256x128_S100000x128_1_0_0_1_n_n none h w)
        (broadcastInDim S100000x128 ![0, 1] bcast_S100000x1_S100000x128_0_1 (broadcastInDim S100000x1 ![0] bcast_S100000_S100000x1_0 s))
      = Cert.Spec.proj256 h w (fun i => shapeCast S100000x1 s sc i) := by
  funext i
  obtain ⟨r, q, rfl⟩ : ∃ (r : Fin 100000) (q : Fin 128), i = ix2 r q := ⟨i 0, i 1, eq_ix2 i⟩
  refine (mulf_apply _ _ _).trans ?_
  rw [dot256_apply, colB_apply]
  unfold Cert.Spec.proj256 Cert.Spec.projAt256
  exact congrArg₂ (· * ·) rfl (colS_apply s sc r 0).symm

/-- The reference's projection — the matrix product times the out-degree factors spread along the rows — is the
    projection of Spec.lean, the factors taken as a column. -/
theorem proj128_form (h : FVec Ideal S100000x128 .f32) (w : FVec Ideal S128x128 .f32) (s : FVec Ideal S100000 .f32) (sc : S100000.ShapeCasts S100000x1) :
    mulf (Host.dotGeneral dot_S100000x128_S128x128_S100000x128_1_0_0_1_n_n none h w)
        (broadcastInDim S100000x128 ![0, 1] bcast_S100000x1_S100000x128_0_1 (broadcastInDim S100000x1 ![0] bcast_S100000_S100000x1_0 s))
      = Cert.Spec.proj128 h w (fun i => shapeCast S100000x1 s sc i) := by
  funext i
  obtain ⟨r, q, rfl⟩ : ∃ (r : Fin 100000) (q : Fin 128), i = ix2 r q := ⟨i 0, i 1, eq_ix2 i⟩
  refine (mulf_apply _ _ _).trans ?_
  rw [dot128_apply, colB_apply]
  unfold Cert.Spec.proj128 Cert.Spec.projAt128
  exact congrArg₂ (· * ·) rfl (colS_apply s sc r 0).symm

/-- The reference's post-aggregation without the clamp — the aggregate times the in-degree factors plus the bias — is
    Spec.lean's, the factors taken as a column and the bias as a row. -/
theorem postLin_form (a : FVec Ideal S100000x128 .f32) (s : FVec Ideal S100000 .f32) (b : FVec Ideal S128 .f32)
    (sc : S100000.ShapeCasts S100000x1) (sc' : S128.ShapeCasts S1x128) :
    addf (mulf a (broadcastInDim S100000x128 ![0, 1] bcast_S100000x1_S100000x128_0_1 (broadcastInDim S100000x1 ![0] bcast_S100000_S100000x1_0 s)))
        (broadcastInDim S100000x128 ![0, 1] bcast_S1x128_S100000x128_0_1 (broadcastInDim S1x128 ![1] bcast_S128_S1x128_1 b))
      = Cert.Spec.postLin a (fun i => shapeCast S100000x1 s sc i) (fun i => shapeCast S1x128 b sc' i) := by
  funext i
  obtain ⟨r, q, rfl⟩ : ∃ (r : Fin 100000) (q : Fin 128), i = ix2 r q := ⟨i 0, i 1, eq_ix2 i⟩
  refine (addf_apply _ _ _).trans ?_
  rw [rowB_apply]
  refine (congrArg (· + b (ix1 q)) (mulf_apply _ _ _)).trans ?_
  rw [colB_apply]
  unfold Cert.Spec.postLin Cert.Spec.affAt
  exact congrArg₂ (· + ·) (congrArg₂ (· * ·) rfl (colS_apply s sc r 0).symm) (rowS_apply b sc' 0 q).symm

/-- The same followed by the clamp at zero. -/
theorem postRelu_form (a : FVec Ideal S100000x128 .f32) (s : FVec Ideal S100000 .f32) (b : FVec Ideal S128 .f32)
    (sc : S100000.ShapeCasts S100000x1) (sc' : S128.ShapeCasts S1x128) :
    maximumf (addf (mulf a (broadcastInDim S100000x128 ![0, 1] bcast_S100000x1_S100000x128_0_1 (broadcastInDim S100000x1 ![0] bcast_S100000_S100000x1_0 s)))
        (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.Spec.postRelu a (fun i => shapeCast S100000x1 s sc i) (fun i => shapeCast S1x128 b sc' i) := by
  funext i
  refine (maximumf_apply _ _ _).trans ?_
  rw [postLin_form a s b sc sc']
  rfl

end Cert.ReferenceIdeal.Forms

end
-- ==== Proof.Bridge.lean ====
/-
  The two idealized programs compute one function of the arguments.

  Reading the kernel's result back through its fourteen segments gives three layers of  projection → aggregation along the
  edges → post-aggregation  over the permuted features, the projections and post-aggregations as the whole-array functions
  of Spec.lean and the host's part as the three functions of HostSteps.lean. The reference's result is the same three
  layers with each projection written as a matrix product times the spread-out out-degree factors and each
  post-aggregation as a product with the spread-out in-degree factors plus the spread-out bias (and the clamp); those are
  the same whole-array functions (Forms.lean). The permutation, the degree factors and the aggregation are the same host
  operations on both sides: they are carried as functions and never opened.
-/
import proofs.«112776_j38946763440231_1_alg».proof.Proof.Chase
import proofs.«112776_j38946763440231_1_alg».proof.Proof.HostSteps
import proofs.«112776_j38946763440231_1_alg».proof.Proof.RefRun
import proofs.«112776_j38946763440231_1_alg».proof.Proof.Forms
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

/-- The reference's edge aggregation is the kernel program's: the same gather and scatter-add, the widening of the
    gathered rows being the identity on extended reals. -/
theorem agg_fold (y : FVec Ideal Cert.ReferenceIdeal.S100000x128 .f32) (s d : IVec Cert.ReferenceIdeal.S1600000 32) :
    Host.scatterAdd Cert.ReferenceIdeal.scatter_S100000x128_S1600000x1_S1600000x128_1_0_0_1 (broadcastInDim Cert.ReferenceIdeal.S100000x128 ![] Cert.ReferenceIdeal.Gen.bcast_S_S100000x128 (constant (F := Ideal) Cert.ReferenceIdeal.S_ .f32 0x00000000#32)) (broadcastInDim Cert.ReferenceIdeal.S1600000x1 ![0] Cert.ReferenceIdeal.Gen.bcast_S1600000_S1600000x1_0 d) (Host.gather Cert.ReferenceIdeal.gather_S100000x128_S1600000x1_S1600000x128_1_0_n_n_0_1_1128 y (broadcastInDim Cert.ReferenceIdeal.S1600000x1 ![0] Cert.ReferenceIdeal.Gen.bcast_S1600000_S1600000x1_0 (select (cmpi .slt s (broadcastInDim Cert.ReferenceIdeal.S1600000 ![] Cert.ReferenceIdeal.Gen.bcast_S_S1600000 (constantI Cert.ReferenceIdeal.S_ 32 0#32))) (addi s (broadcastInDim Cert.ReferenceIdeal.S1600000 ![] Cert.ReferenceIdeal.Gen.bcast_S_S1600000 (constantI Cert.ReferenceIdeal.S_ 32 100000#32))) s)))
    = HostSteps.aggregate (F := Ideal) y s d := rfl

/-- The reference's degree factor is the kernel program's. -/
theorem deg_fold (e : IVec Cert.ReferenceIdeal.S1600000 32) :
    (select (cmpf (F := Ideal) .ogt (Host.scatterAdd Cert.ReferenceIdeal.scatter_S100000_S1600000x1_S1600000_n_0_0_1 (broadcastInDim Cert.ReferenceIdeal.S100000 ![] Cert.ReferenceIdeal.Gen.bcast_S_S100000 (constant (F := Ideal) Cert.ReferenceIdeal.S_ .f32 0x00000000#32)) (broadcastInDim Cert.ReferenceIdeal.S1600000x1 ![0] Cert.ReferenceIdeal.Gen.bcast_S1600000_S1600000x1_0 e) (broadcastInDim Cert.ReferenceIdeal.S1600000 ![] Cert.ReferenceIdeal.Gen.bcast_S_S1600000 (constant (F := Ideal) Cert.ReferenceIdeal.S_ .f32 0x3F800000#32))) (broadcastInDim Cert.ReferenceIdeal.S100000 ![] Cert.ReferenceIdeal.Gen.bcast_S_S100000 (constant (F := Ideal) Cert.ReferenceIdeal.S_ .f32 0x00000000#32))) (Host.rsqrt (maximumf (Host.scatterAdd Cert.ReferenceIdeal.scatter_S100000_S1600000x1_S1600000_n_0_0_1 (broadcastInDim Cert.ReferenceIdeal.S100000 ![] Cert.ReferenceIdeal.Gen.bcast_S_S100000 (constant (F := Ideal) Cert.ReferenceIdeal.S_ .f32 0x00000000#32)) (broadcastInDim Cert.ReferenceIdeal.S1600000x1 ![0] Cert.ReferenceIdeal.Gen.bcast_S1600000_S1600000x1_0 e) (broadcastInDim Cert.ReferenceIdeal.S1600000 ![] Cert.ReferenceIdeal.Gen.bcast_S_S1600000 (constant (F := Ideal) Cert.ReferenceIdeal.S_ .f32 0x3F800000#32))) (broadcastInDim Cert.ReferenceIdeal.S100000 ![] Cert.ReferenceIdeal.Gen.bcast_S_S100000 (constant (F := Ideal) Cert.ReferenceIdeal.S_ .f32 0x3F800000#32)))) (broadcastInDim Cert.ReferenceIdeal.S100000 ![] Cert.ReferenceIdeal.Gen.bcast_S_S100000 (id (constant (F := Ideal) Cert.ReferenceIdeal.S_ .f32 0x00000000#32))))
    = HostSteps.degFactor (F := Ideal) e := rfl

/-- The reference's permuted features are the kernel program's. -/
theorem perm_fold (x : FVec Ideal Cert.ReferenceIdeal.S100000x256 .f32) (p : IVec Cert.ReferenceIdeal.S100000 32) :
    (Host.gather Cert.ReferenceIdeal.gather_S100000x256_S100000x1_S100000x256_1_0_n_n_0_1_1256 x (broadcastInDim Cert.ReferenceIdeal.S100000x1 ![0] Cert.ReferenceIdeal.Gen.bcast_S100000_S100000x1_0 (select (cmpi .slt p (broadcastInDim Cert.ReferenceIdeal.S100000 ![] Cert.ReferenceIdeal.Gen.bcast_S_S100000 (constantI Cert.ReferenceIdeal.S_ 32 0#32))) (addi p (broadcastInDim Cert.ReferenceIdeal.S100000 ![] Cert.ReferenceIdeal.Gen.bcast_S_S100000 (constantI Cert.ReferenceIdeal.S_ 32 100000#32))) p)))
    = HostSteps.permuted (F := Ideal) x p := rfl

/-- Clamping the unclamped post-aggregation at zero is the clamped one. -/
theorem relu_postLin (a : FVec Ideal Cert.ReferenceIdeal.S100000x128 .f32) (s : Vec Ideal S100000x1 .f32) (b : Vec Ideal S1x128 .f32) :
    maximumf (Cert.Spec.postLin a s b)
        (broadcastInDim Cert.ReferenceIdeal.S100000x128 ![] Cert.ReferenceIdeal.Gen.bcast_S_S100000x128 (constant (F := Ideal) Cert.ReferenceIdeal.S_ .f32 0x00000000#32))
      = Cert.Spec.postRelu a s b := rfl

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

set_option maxHeartbeats 8000000 in
/-- From memories that agree on the ten arguments, the reference's result term is what the kernel's last segment boundary
    holds at the kernel's result buffer. -/
theorem result_eq (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v87 (F := Ideal) m' c = W14 (F := Ideal) m ρ c (Proc.devRef .tc main_v69) := by
  obtain ⟨h0, h1, h2, h3, h4, h5, h6, h7, h8, h9⟩ := hagree
  simp (disch := decide) only [Chase.W14_out, Chase.W14_in0, Chase.W14_in1, Chase.W14_in2, Chase.W14_ne,
    Chase.W12_out, Chase.W12_in0, Chase.W12_in1, Chase.W12_in2, Chase.W12_ne,
    Chase.W11_out, Chase.W11_in0, Chase.W11_in1, Chase.W11_in2, Chase.W11_ne,
    Chase.W9_out, Chase.W9_in0, Chase.W9_in1, Chase.W9_in2, Chase.W9_ne,
    Chase.W8_out, Chase.W8_in0, Chase.W8_in1, Chase.W8_in2, Chase.W8_ne,
    Chase.W6_out, Chase.W6_in0, Chase.W6_in1, Chase.W6_in2, Chase.W6_ne,
    HostSteps.W13_agg, HostSteps.W13_row, HostSteps.W13_keep_v27,
    HostSteps.W10_agg, HostSteps.W10_row, HostSteps.W10_keep_v26, HostSteps.W10_keep_v27, HostSteps.W10_keep_arg1, HostSteps.W10_keep_arg2,
    HostSteps.W10_keep_arg8, HostSteps.W10_keep_arg9,
    HostSteps.W7_agg, HostSteps.W7_row, HostSteps.W7_keep_v26, HostSteps.W7_keep_v27, HostSteps.W7_keep_arg1, HostSteps.W7_keep_arg2,
    HostSteps.W7_keep_arg6, HostSteps.W7_keep_arg7, HostSteps.W7_keep_arg8, HostSteps.W7_keep_arg9,
    HostSteps.W5_v6, HostSteps.W5_v26, HostSteps.W5_v27, HostSteps.W5_arg1, HostSteps.W5_arg2, HostSteps.W5_arg4, HostSteps.W5_arg5,
    HostSteps.W5_arg6, HostSteps.W5_arg7, HostSteps.W5_arg8, HostSteps.W5_arg9]
  unfold Cert.ReferenceIdeal.ValueP.res_main_v87
  rw [h0, h1, h2, h3, h4, h5, h6, h7, h8, h9]
  rw [deg_fold, deg_fold, perm_fold]
  simp only [Cert.ReferenceIdeal.Forms.proj256_form _ _ _ Cert.KernelIdeal.Facts₀.shapeCasts_S100000_S100000x1,
    Cert.ReferenceIdeal.Forms.proj128_form _ _ _ Cert.KernelIdeal.Facts₀.shapeCasts_S100000_S100000x1,
    Cert.ReferenceIdeal.Forms.postRelu_form _ _ _ Cert.KernelIdeal.Facts₀.shapeCasts_S100000_S100000x1 Cert.KernelIdeal.Facts₀.shapeCasts_S128_S1x128,
    Cert.ReferenceIdeal.Forms.postLin_form _ _ _ Cert.KernelIdeal.Facts₀.shapeCasts_S100000_S100000x1 Cert.KernelIdeal.Facts₀.shapeCasts_S128_S1x128]
  rw [relu_postLin, relu_postLin]
  rw [agg_fold, agg_fold, agg_fold]

end Cert.Bridge

end
-- ==== Proof.lean ====
/-
  A three-layer graph convolution with permuted node features, a Pallas kernel against its jnp reference, equal on the
  extended reals.

  Each layer is  out = act( s_in ⊙ A (s_out ⊙ (h W)) + b ):  s_out and s_in are the inverse square roots of the out- and
  in-degrees (zero for an isolated node), A sums over incoming edges (a gather along the edge sources followed by a
  scatter-add along the edge destinations), and act clamps at zero in the first two layers. The kernel computes the
  projection  s_out ⊙ (h W)  and the post-aggregation  act(s_in ⊙ · + b)  in six tiled regions of 2000 node rows and leaves the
  degree computation, the permutation, the gathers and the scatter-adds to host operations, which are the reference's own.
  On the extended reals the changes of float format are the identity, a block's matrix product into a zero accumulator is
  the plain sum over the contracted coordinate, and fifty blocks of 2000 rows tile the 100000 rows, so each region leaves
  exactly the reference's array: no algebraic law beyond reading both sides entry by entry is needed, and the finiteness of
  the inputs is never used.

  Body.lean reads the six bodies' arithmetic at an entry; Spec.lean states each region's whole-array function; Region0–5
  show that a region's output array ends at that function of its input arrays (the blocks written back tile the array);
  RunOut.lean names the kernel's result at its last segment boundary; HostSteps.lean reads the host's part of the kernel
  program as three functions (the permuted features, a degree factor, the aggregation along the edges), for any float
  arithmetic; Chase.lean carries buffer contents across the regions; Forms.lean reads the reference's matrix products,
  spread-out factors and biases as the same whole-array functions; Bridge.lean joins the two, the host's three functions
  carried as they are and never opened.
-/
import proofs.«112776_j38946763440231_1_alg».proof.Defs
import proofs.«112776_j38946763440231_1_alg».proof.Proof.Gen.Kernel
import proofs.«112776_j38946763440231_1_alg».proof.Proof.Gen.Kernel.Skeleton
import proofs.«112776_j38946763440231_1_alg».proof.Proof.Gen.Kernel.Launch
import proofs.«112776_j38946763440231_1_alg».proof.Proof.Gen.Kernel.Points
import proofs.«112776_j38946763440231_1_alg».proof.Proof.Gen.Kernel.Frame
import proofs.«112776_j38946763440231_1_alg».proof.Proof.Gen.KernelIdeal
import proofs.«112776_j38946763440231_1_alg».proof.Proof.Gen.KernelIdeal.Skeleton
import proofs.«112776_j38946763440231_1_alg».proof.Proof.Gen.KernelIdeal.Launch
import proofs.«112776_j38946763440231_1_alg».proof.Proof.Gen.KernelIdeal.Points
import proofs.«112776_j38946763440231_1_alg».proof.Proof.Gen.KernelIdeal.Frame
import proofs.«112776_j38946763440231_1_alg».proof.Proof.Gen.ReferenceIdeal
import proofs.«112776_j38946763440231_1_alg».proof.Proof.Gen.Pre_finite_inputs
import proofs.«112776_j38946763440231_1_alg».proof.Proof.RunOut
import proofs.«112776_j38946763440231_1_alg».proof.Proof.RefRun
import proofs.«112776_j38946763440231_1_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference is host operations only: its run, with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- The ideal pass rewrote nothing in this kernel. -/
theorem preserves : Cert.preserves_Kernel_KernelIdeal := trivial

/-- From memories agreeing on the arguments both idealized programs end with the same array: the kernel's run names its
    result at the last segment boundary, the reference's run names its own as a term of the arguments, and the two are one
    function (Bridge.lean). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W14 (F := Ideal) m ρ c (Proc.devRef .tc Cert.KernelIdeal.main_v69),
    Cert.KernelIdeal.Out.run_out (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m ρ m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
